-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x25x128x128 : Shape := ⟨4, ![8, 25, 128, 128]⟩
abbrev S8x256x128x128 : Shape := ⟨4, ![8, 256, 128, 128]⟩
abbrev S_ : Shape := ⟨0, ![]⟩

class Facts : Prop where
  bcast_S_S8x25x128x128 : S_.BroadcastsInDim S8x25x128x128 (![] : Fin 0 → Fin S8x25x128x128.rank)
  reducesTo_S8x25x128x128_S_d0_1_2_3 : S8x25x128x128.ReducesTo [0, 1, 2, 3] S_
  h_S_ : 0 < S_.numel
  bcast_S_S8x256x128x128 : S_.BroadcastsInDim S8x256x128x128 (![] : Fin 0 → Fin S8x256x128x128.rank)
  reducesTo_S8x256x128x128_S_d0_1_2_3 : S8x256x128x128.ReducesTo [0, 1, 2, 3] S_

variable [Facts]

def fn {F : FTy → Type} [FloatOps F] (main_arg0 : FVec F S8x25x128x128 .f32) (main_arg1 : FVec F S8x256x128x128 .f32) : IVec S_ 1 :=
  let main_v0 : FVec F S8x25x128x128 .f32 := Host.absf main_arg0
  let main_cst : FVec F S_ .f32 := constant S_ .f32 0x7F800000#32
  let main_v1 : FVec F S8x25x128x128 .f32 := broadcastInDim S8x25x128x128 ![] bcast_S_S8x25x128x128 main_cst
  let main_v2 : IVec S8x25x128x128 1 := cmpf .olt main_v0 main_v1
  let main_c : IVec S_ 1 := constantI S_ 1 1#1
  let main_v3 : IVec S_ 1 := (fun x v => Host.reduce IntOp.andi x v reducesTo_S8x25x128x128_S_d0_1_2_3 h_S_) main_v2 main_c
  let main_v4 : FVec F S8x256x128x128 .f32 := Host.absf main_arg1
  let main_cst_0 : FVec F S_ .f32 := constant S_ .f32 0x7F800000#32
  let main_v5 : FVec F S8x256x128x128 .f32 := broadcastInDim S8x256x128x128 ![] bcast_S_S8x256x128x128 main_cst_0
  let main_v6 : IVec S8x256x128x128 1 := cmpf .olt main_v4 main_v5
  let main_c_1 : IVec S_ 1 := constantI S_ 1 1#1
  let main_v7 : IVec S_ 1 := (fun x v => Host.reduce IntOp.andi x v reducesTo_S8x256x128x128_S_d0_1_2_3 h_S_) main_v6 main_c_1
  let main_v8 : IVec S_ 1 := andi main_v3 main_v7
  main_v8
-- ==== Kernel.lean ====
abbrev S8x25x128x128 : Shape := ⟨4, ![8, 25, 128, 128]⟩
abbrev S8x256x128x128 : Shape := ⟨4, ![8, 256, 128, 128]⟩
abbrev S8x128x128 : Shape := ⟨3, ![8, 128, 128]⟩
abbrev S1x25x128x128 : Shape := ⟨4, ![1, 25, 128, 128]⟩
abbrev S1x128x128 : Shape := ⟨3, ![1, 128, 128]⟩
abbrev S128x128 : Shape := ⟨2, ![128, 128]⟩
abbrev S1x1x128x128 : Shape := ⟨4, ![1, 1, 128, 128]⟩
abbrev S1x128x128x128 : Shape := ⟨4, ![1, 128, 128, 128]⟩

abbrev nBuf : Space → Nat
  | .hbm => 4
  | .vmem => 10
  | .smem => 0
  | _ => 0

abbrev bufTy : (tb : Table) → Fin (tcTables nBuf tb) → BufTy
  | .hbm, ⟨0, _⟩ => ⟨S8x25x128x128, .f32⟩
  | .hbm, ⟨1, _⟩ => ⟨S8x256x128x128, .f32⟩
  | .hbm, ⟨2, _⟩ => ⟨S8x128x128, .f32⟩
  | .hbm, ⟨3, _⟩ => ⟨S8x256x128x128, .f32⟩
  | .local _ .vmem, ⟨0, _⟩ => ⟨S1x25x128x128, .f32⟩
  | .local _ .vmem, ⟨1, _⟩ => ⟨S1x25x128x128, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128x128, .f32⟩
  | .local _ .vmem, ⟨7, _⟩ => ⟨S1x128x128x128, .f32⟩
  | .local _ .vmem, ⟨8, _⟩ => ⟨S1x128x128x128, .f32⟩
  | .local _ .vmem, ⟨9, _⟩ => ⟨S1x128x128x128, .f32⟩
  | _, _ => ⟨S8x25x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x25x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x128x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  iota_S128x128_d0_w32 : S128x128.Iotas .tc 32 [0]
  iota_S128x128_d1_w32 : S128x128.Iotas .tc 32 [1]
  inb_S1x25x128x128_S1x1x128x128_0_0_0_0 : ∀ a, (![0, 0, 0, 0] : Fin 4 → Nat) a + S1x1x128x128.size a ≤ S1x25x128x128.size a
  h_S1x1x128x128 : 0 < S1x1x128x128.numel
  shapeCasts_S1x1x128x128_S128x128 : S1x1x128x128.ShapeCasts S128x128
  rotates_S128x128_d0 : S128x128.Rotates 0 none
  rotates_S128x128_d1 : S128x128.Rotates 1 none
  inb_S1x25x128x128_S1x1x128x128_0_1_0_0 : ∀ a, (![0, 1, 0, 0] : Fin 4 → Nat) a + S1x1x128x128.size a ≤ S1x25x128x128.size a
  inb_S1x25x128x128_S1x1x128x128_0_2_0_0 : ∀ a, (![0, 2, 0, 0] : Fin 4 → Nat) a + S1x1x128x128.size a ≤ S1x25x128x128.size a
  inb_S1x25x128x128_S1x1x128x128_0_3_0_0 : ∀ a, (![0, 3, 0, 0] : Fin 4 → Nat) a + S1x1x128x128.size a ≤ S1x25x128x128.size a
  inb_S1x25x128x128_S1x1x128x128_0_4_0_0 : ∀ a, (![0, 4, 0, 0] : Fin 4 → Nat) a + S1x1x128x128.size a ≤ S1x25x128x128.size a
  inb_S1x25x128x128_S1x1x128x128_0_5_0_0 : ∀ a, (![0, 5, 0, 0] : Fin 4 → Nat) a + S1x1x128x128.size a ≤ S1x25x128x128.size a
  inb_S1x25x128x128_S1x1x128x128_0_6_0_0 : ∀ a, (![0, 6, 0, 0] : Fin 4 → Nat) a + S1x1x128x128.size a ≤ S1x25x128x128.size a
  inb_S1x25x128x128_S1x1x128x128_0_7_0_0 : ∀ a, (![0, 7, 0, 0] : Fin 4 → Nat) a + S1x1x128x128.size a ≤ S1x25x128x128.size a
  inb_S1x25x128x128_S1x1x128x128_0_8_0_0 : ∀ a, (![0, 8, 0, 0] : Fin 4 → Nat) a + S1x1x128x128.size a ≤ S1x25x128x128.size a
  inb_S1x25x128x128_S1x1x128x128_0_9_0_0 : ∀ a, (![0, 9, 0, 0] : Fin 4 → Nat) a + S1x1x128x128.size a ≤ S1x25x128x128.size a
  inb_S1x25x128x128_S1x1x128x128_0_10_0_0 : ∀ a, (![0, 10, 0, 0] : Fin 4 → Nat) a + S1x1x128x128.size a ≤ S1x25x128x128.size a
  inb_S1x25x128x128_S1x1x128x128_0_11_0_0 : ∀ a, (![0, 11, 0, 0] : Fin 4 → Nat) a + S1x1x128x128.size a ≤ S1x25x128x128.size a
  inb_S1x25x128x128_S1x1x128x128_0_12_0_0 : ∀ a, (![0, 12, 0, 0] : Fin 4 → Nat) a + S1x1x128x128.size a ≤ S1x25x128x128.size a
  inb_S1x25x128x128_S1x1x128x128_0_13_0_0 : ∀ a, (![0, 13, 0, 0] : Fin 4 → Nat) a + S1x1x128x128.size a ≤ S1x25x128x128.size a
  inb_S1x25x128x128_S1x1x128x128_0_14_0_0 : ∀ a, (![0, 14, 0, 0] : Fin 4 → Nat) a + S1x1x128x128.size a ≤ S1x25x128x128.size a
  inb_S1x25x128x128_S1x1x128x128_0_15_0_0 : ∀ a, (![0, 15, 0, 0] : Fin 4 → Nat) a + S1x1x128x128.size a ≤ S1x25x128x128.size a
  inb_S1x25x128x128_S1x1x128x128_0_16_0_0 : ∀ a, (![0, 16, 0, 0] : Fin 4 → Nat) a + S1x1x128x128.size a ≤ S1x25x128x128.size a
  inb_S1x25x128x128_S1x1x128x128_0_17_0_0 : ∀ a, (![0, 17, 0, 0] : Fin 4 → Nat) a + S1x1x128x128.size a ≤ S1x25x128x128.size a
  inb_S1x25x128x128_S1x1x128x128_0_18_0_0 : ∀ a, (![0, 18, 0, 0] : Fin 4 → Nat) a + S1x1x128x128.size a ≤ S1x25x128x128.size a
  inb_S1x25x128x128_S1x1x128x128_0_19_0_0 : ∀ a, (![0, 19, 0, 0] : Fin 4 → Nat) a + S1x1x128x128.size a ≤ S1x25x128x128.size a
  inb_S1x25x128x128_S1x1x128x128_0_20_0_0 : ∀ a, (![0, 20, 0, 0] : Fin 4 → Nat) a + S1x1x128x128.size a ≤ S1x25x128x128.size a
  inb_S1x25x128x128_S1x1x128x128_0_21_0_0 : ∀ a, (![0, 21, 0, 0] : Fin 4 → Nat) a + S1x1x128x128.size a ≤ S1x25x128x128.size a
  inb_S1x25x128x128_S1x1x128x128_0_22_0_0 : ∀ a, (![0, 22, 0, 0] : Fin 4 → Nat) a + S1x1x128x128.size a ≤ S1x25x128x128.size a
  inb_S1x25x128x128_S1x1x128x128_0_23_0_0 : ∀ a, (![0, 23, 0, 0] : Fin 4 → Nat) a + S1x1x128x128.size a ≤ S1x25x128x128.size a
  inb_S1x25x128x128_S1x1x128x128_0_24_0_0 : ∀ a, (![0, 24, 0, 0] : Fin 4 → Nat) a + S1x1x128x128.size a ≤ S1x25x128x128.size a
  shapeCasts_S128x128_S1x128x128 : S128x128.ShapeCasts S1x128x128
  inb_S1x128x128_S1x128x128_0_0_0 : ∀ a, (![0, 0, 0] : Fin 3 → Nat) a + S1x128x128.size a ≤ S1x128x128.size a
  h_S1x128x128 : 0 < S1x128x128.numel
  shapeCasts_S1x128x128_S1x128x128 : S1x128x128.ShapeCasts S1x128x128
  inb_S1x128x128x128_S1x128x128x128_0_0_0_0 : ∀ a, (![0, 0, 0, 0] : Fin 4 → Nat) a + S1x128x128x128.size a ≤ S1x128x128x128.size a
  h_S1x128x128x128 : 0 < S1x128x128x128.numel
  shapeCasts_S1x128x128_S1x1x128x128 : S1x128x128.ShapeCasts S1x1x128x128
  broadcasts_S1x1x128x128_S1x128x128x128 : S1x1x128x128.Broadcasts S1x128x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x25x128x128.size a ≤ S8x25x128x128.size a
  hwx0_0 : ∀ i : grid0.Coords, EltTy.bits .f32 = 32 ∨ (Rect.block (s := S8x25x128x128) S1x25x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S8x128x128.size a
  hwx0_1 : ∀ i : grid0.Coords, EltTy.bits .f32 = 32 ∨ (Rect.block (s := S8x128x128) S1x128x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x128.size a ≤ S8x128x128.size a
  hwx1_0 : ∀ i : grid1.Coords, EltTy.bits .f32 = 32 ∨ (Rect.block (s := S8x128x128) S1x128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x128x128.size a ≤ S8x256x128x128.size a
  hwx1_1 : ∀ i : grid1.Coords, EltTy.bits .f32 = 32 ∨ (Rect.block (s := S8x256x128x128) S1x128x128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x128x128.size a ≤ S8x256x128x128.size a
  hwx1_2 : ∀ i : grid1.Coords, EltTy.bits .f32 = 32 ∨ (Rect.block (s := S8x256x128x128) S1x128x128x128.size (cc1_transform_2 i) (hinb1_2 i)).WholeWords (EltTy.packing .f32)

variable [Facts₀]

abbrev win0_0 : Pipeline.Window sig grid0 :=
  Pipeline.Window.ofSpec (Memref.whole main_arg0) S1x25x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x128x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x128x128x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x25x128x128 : Shape := ⟨4, ![8, 25, 128, 128]⟩
abbrev S8x256x128x128 : Shape := ⟨4, ![8, 256, 128, 128]⟩
abbrev S_ : Shape := ⟨0, ![]⟩
abbrev S8x25x132x132 : Shape := ⟨4, ![8, 25, 132, 132]⟩
abbrev S8x128x128 : Shape := ⟨3, ![8, 128, 128]⟩
abbrev S8x1x128x128 : Shape := ⟨4, ![8, 1, 128, 128]⟩

abbrev nBuf : Space → Nat
  | .hbm => 85
  | .vmem => 0
  | .smem => 0
  | _ => 0

abbrev bufTy : (tb : Table) → Fin (tcTables nBuf tb) → BufTy
  | .hbm, ⟨0, _⟩ => ⟨S8x25x128x128, .f32⟩
  | .hbm, ⟨1, _⟩ => ⟨S8x256x128x128, .f32⟩
  | .hbm, ⟨2, _⟩ => ⟨S_, .i32⟩
  | .hbm, ⟨3, _⟩ => ⟨S_, .f32⟩
  | .hbm, ⟨4, _⟩ => ⟨S8x25x132x132, .f32⟩
  | .hbm, ⟨5, _⟩ => ⟨S_, .f32⟩
  | .hbm, ⟨6, _⟩ => ⟨S8x128x128, .f32⟩
  | .hbm, ⟨7, _⟩ => ⟨S8x1x128x128, .f32⟩
  | .hbm, ⟨8, _⟩ => ⟨S8x128x128, .f32⟩
  | .hbm, ⟨9, _⟩ => ⟨S8x128x128, .f32⟩
  | .hbm, ⟨10, _⟩ => ⟨S8x1x128x128, .f32⟩
  | .hbm, ⟨11, _⟩ => ⟨S8x128x128, .f32⟩
  | .hbm, ⟨12, _⟩ => ⟨S8x128x128, .f32⟩
  | .hbm, ⟨13, _⟩ => ⟨S8x1x128x128, .f32⟩
  | .hbm, ⟨14, _⟩ => ⟨S8x128x128, .f32⟩
  | .hbm, ⟨15, _⟩ => ⟨S8x128x128, .f32⟩
  | .hbm, ⟨16, _⟩ => ⟨S8x1x128x128, .f32⟩
  | .hbm, ⟨17, _⟩ => ⟨S8x128x128, .f32⟩
  | .hbm, ⟨18, _⟩ => ⟨S8x128x128, .f32⟩
  | .hbm, ⟨19, _⟩ => ⟨S8x1x128x128, .f32⟩
  | .hbm, ⟨20, _⟩ => ⟨S8x128x128, .f32⟩
  | .hbm, ⟨21, _⟩ => ⟨S8x128x128, .f32⟩
  | .hbm, ⟨22, _⟩ => ⟨S8x1x128x128, .f32⟩
  | .hbm, ⟨23, _⟩ => ⟨S8x128x128, .f32⟩
  | .hbm, ⟨24, _⟩ => ⟨S8x128x128, .f32⟩
  | .hbm, ⟨25, _⟩ => ⟨S8x1x128x128, .f32⟩
  | .hbm, ⟨26, _⟩ => ⟨S8x128x128, .f32⟩
  | .hbm, ⟨27, _⟩ => ⟨S8x128x128, .f32⟩
  | .hbm, ⟨28, _⟩ => ⟨S8x1x128x128, .f32⟩
  | .hbm, ⟨29, _⟩ => ⟨S8x128x128, .f32⟩
  | .hbm, ⟨30, _⟩ => ⟨S8x128x128, .f32⟩
  | .hbm, ⟨31, _⟩ => ⟨S8x1x128x128, .f32⟩
  | .hbm, ⟨32, _⟩ => ⟨S8x128x128, .f32⟩
  | .hbm, ⟨33, _⟩ => ⟨S8x128x128, .f32⟩
  | .hbm, ⟨34, _⟩ => ⟨S8x1x128x128, .f32⟩
  | .hbm, ⟨35, _⟩ => ⟨S8x128x128, .f32⟩
  | .hbm, ⟨36, _⟩ => ⟨S8x128x128, .f32⟩
  | .hbm, ⟨37, _⟩ => ⟨S8x1x128x128, .f32⟩
  | .hbm, ⟨38, _⟩ => ⟨S8x128x128, .f32⟩
  | .hbm, ⟨39, _⟩ => ⟨S8x128x128, .f32⟩
  | .hbm, ⟨40, _⟩ => ⟨S8x1x128x128, .f32⟩
  | .hbm, ⟨41, _⟩ => ⟨S8x128x128, .f32⟩
  | .hbm, ⟨42, _⟩ => ⟨S8x128x128, .f32⟩
  | .hbm, ⟨43, _⟩ => ⟨S8x1x128x128, .f32⟩
  | .hbm, ⟨44, _⟩ => ⟨S8x128x128, .f32⟩
  | .hbm, ⟨45, _⟩ => ⟨S8x128x128, .f32⟩
  | .hbm, ⟨46, _⟩ => ⟨S8x1x128x128, .f32⟩
  | .hbm, ⟨47, _⟩ => ⟨S8x128x128, .f32⟩
  | .hbm, ⟨48, _⟩ => ⟨S8x128x128, .f32⟩
  | .hbm, ⟨49, _⟩ => ⟨S8x1x128x128, .f32⟩
  | .hbm, ⟨50, _⟩ => ⟨S8x128x128, .f32⟩
  | .hbm, ⟨51, _⟩ => ⟨S8x128x128, .f32⟩
  | .hbm, ⟨52, _⟩ => ⟨S8x1x128x128, .f32⟩
  | .hbm, ⟨53, _⟩ => ⟨S8x128x128, .f32⟩
  | .hbm, ⟨54, _⟩ => ⟨S8x128x128, .f32⟩
  | .hbm, ⟨55, _⟩ => ⟨S8x1x128x128, .f32⟩
  | .hbm, ⟨56, _⟩ => ⟨S8x128x128, .f32⟩
  | .hbm, ⟨57, _⟩ => ⟨S8x128x128, .f32⟩
  | .hbm, ⟨58, _⟩ => ⟨S8x1x128x128, .f32⟩
  | .hbm, ⟨59, _⟩ => ⟨S8x128x128, .f32⟩
  | .hbm, ⟨60, _⟩ => ⟨S8x128x128, .f32⟩
  | .hbm, ⟨61, _⟩ => ⟨S8x1x128x128, .f32⟩
  | .hbm, ⟨62, _⟩ => ⟨S8x128x128, .f32⟩
  | .hbm, ⟨63, _⟩ => ⟨S8x128x128, .f32⟩
  | .hbm, ⟨64, _⟩ => ⟨S8x1x128x128, .f32⟩
  | .hbm, ⟨65, _⟩ => ⟨S8x128x128, .f32⟩
  | .hbm, ⟨66, _⟩ => ⟨S8x128x128, .f32⟩
  | .hbm, ⟨67, _⟩ => ⟨S8x1x128x128, .f32⟩
  | .hbm, ⟨68, _⟩ => ⟨S8x128x128, .f32⟩
  | .hbm, ⟨69, _⟩ => ⟨S8x128x128, .f32⟩
  | .hbm, ⟨70, _⟩ => ⟨S8x1x128x128, .f32⟩
  | .hbm, ⟨71, _⟩ => ⟨S8x128x128, .f32⟩
  | .hbm, ⟨72, _⟩ => ⟨S8x128x128, .f32⟩
  | .hbm, ⟨73, _⟩ => ⟨S8x1x128x128, .f32⟩
  | .hbm, ⟨74, _⟩ => ⟨S8x128x128, .f32⟩
  | .hbm, ⟨75, _⟩ => ⟨S8x128x128, .f32⟩
  | .hbm, ⟨76, _⟩ => ⟨S8x1x128x128, .f32⟩
  | .hbm, ⟨77, _⟩ => ⟨S8x128x128, .f32⟩
  | .hbm, ⟨78, _⟩ => ⟨S8x128x128, .f32⟩
  | .hbm, ⟨79, _⟩ => ⟨S8x1x128x128, .f32⟩
  | .hbm, ⟨80, _⟩ => ⟨S8x128x128, .f32⟩
  | .hbm, ⟨81, _⟩ => ⟨S8x128x128, .f32⟩
  | .hbm, ⟨82, _⟩ => ⟨S8x1x128x128, .f32⟩
  | .hbm, ⟨83, _⟩ => ⟨S8x256x128x128, .f32⟩
  | .hbm, ⟨84, _⟩ => ⟨S8x256x128x128, .f32⟩
  | _, _ => ⟨S8x25x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩

abbrev nD : Nat := 1
abbrev τ : Topo := Topo.v7x

variable {F : FTy → Type} [FloatOps F]

class Facts₀ : Prop where
  pads_S8x25x128x128_S8x25x132x132_000_000_220_220 : S8x25x128x128.Pads (![0, 0, 2, 2] : Fin 4 → Nat) ![0, 0, 2, 2] ![0, 0, 0, 0] S8x25x132x132
  h_S_ : 0 < S_.numel
  bcast_S_S8x128x128 : S_.BroadcastsInDim S8x128x128 (![] : Fin 0 → Fin S8x128x128.rank)
  slices_S8x25x132x132_S8x1x128x128_0_0_4_4 : S8x25x132x132.Slices ![0, 0, 4, 4] S8x1x128x128
  shapeCasts_S8x1x128x128_S8x128x128 : S8x1x128x128.ShapeCasts S8x128x128
  slices_S8x25x132x132_S8x1x128x128_0_1_4_3 : S8x25x132x132.Slices ![0, 1, 4, 3] S8x1x128x128
  slices_S8x25x132x132_S8x1x128x128_0_2_4_2 : S8x25x132x132.Slices ![0, 2, 4, 2] S8x1x128x128
  slices_S8x25x132x132_S8x1x128x128_0_3_4_1 : S8x25x132x132.Slices ![0, 3, 4, 1] S8x1x128x128
  slices_S8x25x132x132_S8x1x128x128_0_4_4_0 : S8x25x132x132.Slices ![0, 4, 4, 0] S8x1x128x128
  slices_S8x25x132x132_S8x1x128x128_0_5_3_4 : S8x25x132x132.Slices ![0, 5, 3, 4] S8x1x128x128
  slices_S8x25x132x132_S8x1x128x128_0_6_3_3 : S8x25x132x132.Slices ![0, 6, 3, 3] S8x1x128x128
  slices_S8x25x132x132_S8x1x128x128_0_7_3_2 : S8x25x132x132.Slices ![0, 7, 3, 2] S8x1x128x128
  slices_S8x25x132x132_S8x1x128x128_0_8_3_1 : S8x25x132x132.Slices ![0, 8, 3, 1] S8x1x128x128
  slices_S8x25x132x132_S8x1x128x128_0_9_3_0 : S8x25x132x132.Slices ![0, 9, 3, 0] S8x1x128x128
  slices_S8x25x132x132_S8x1x128x128_0_10_2_4 : S8x25x132x132.Slices ![0, 10, 2, 4] S8x1x128x128
  slices_S8x25x132x132_S8x1x128x128_0_11_2_3 : S8x25x132x132.Slices ![0, 11, 2, 3] S8x1x128x128
  slices_S8x25x132x132_S8x1x128x128_0_12_2_2 : S8x25x132x132.Slices ![0, 12, 2, 2] S8x1x128x128
  slices_S8x25x132x132_S8x1x128x128_0_13_2_1 : S8x25x132x132.Slices ![0, 13, 2, 1] S8x1x128x128
  slices_S8x25x132x132_S8x1x128x128_0_14_2_0 : S8x25x132x132.Slices ![0, 14, 2, 0] S8x1x128x128
  slices_S8x25x132x132_S8x1x128x128_0_15_1_4 : S8x25x132x132.Slices ![0, 15, 1, 4] S8x1x128x128
  slices_S8x25x132x132_S8x1x128x128_0_16_1_3 : S8x25x132x132.Slices ![0, 16, 1, 3] S8x1x128x128
  slices_S8x25x132x132_S8x1x128x128_0_17_1_2 : S8x25x132x132.Slices ![0, 17, 1, 2] S8x1x128x128
  slices_S8x25x132x132_S8x1x128x128_0_18_1_1 : S8x25x132x132.Slices ![0, 18, 1, 1] S8x1x128x128
  slices_S8x25x132x132_S8x1x128x128_0_19_1_0 : S8x25x132x132.Slices ![0, 19, 1, 0] S8x1x128x128
  slices_S8x25x132x132_S8x1x128x128_0_20_0_4 : S8x25x132x132.Slices ![0, 20, 0, 4] S8x1x128x128
  slices_S8x25x132x132_S8x1x128x128_0_21_0_3 : S8x25x132x132.Slices ![0, 21, 0, 3] S8x1x128x128
  slices_S8x25x132x132_S8x1x128x128_0_22_0_2 : S8x25x132x132.Slices ![0, 22, 0, 2] S8x1x128x128
  slices_S8x25x132x132_S8x1x128x128_0_23_0_1 : S8x25x132x132.Slices ![0, 23, 0, 1] S8x1x128x128
  slices_S8x25x132x132_S8x1x128x128_0_24_0_0 : S8x25x132x132.Slices ![0, 24, 0, 0] S8x1x128x128
  bcast_S8x128x128_S8x1x128x128_0_2_3 : S8x128x128.BroadcastsInDim S8x1x128x128 (![0, 2, 3] : Fin 3 → Fin S8x1x128x128.rank)
  bcast_S8x1x128x128_S8x256x128x128_0_1_2_3 : S8x1x128x128.BroadcastsInDim S8x256x128x128 (![0, 1, 2, 3] : Fin 4 → Fin S8x256x128x128.rank)

variable [Facts₀]

class Facts : Prop extends Facts₀ where

variable [Facts]
-- ==== Proof.TapSum.lean ====
/-
  The function both programs compute, stated once over the argument arrays.

  `kernel` is an array [8, 25, 128, 128]: for each batch entry `n`, 25 planes of 128 × 128, plane `5a + b` belonging
  to the tap `(a, b)` of a 5 × 5 stencil. Tap `(a, b)` contributes to the entry `(y, x)` of the plane sum the entry
  `(y + 2 - a, x + 2 - b)` of its plane when that lies inside the plane, and nothing (zero) when it falls off an edge.
  `shifted K n y x` adds the 25 contributions, `a` outer and `b` inner, starting from zero and adding on the right:
  both programs add in exactly this order, so no law of addition is needed to compare them, and none is used — the
  sum is a left fold on the extended reals, infinite entries included. The result is `low_fea` times that sum,
  the sum being the same for all 256 channels.
-/
import Idealize.ShloMosaic.PureOps.Ideal
import Idealize.ShloMosaic.Lib.ValueIdx

noncomputable section

namespace Cert.TapSum

open Idealize.ShloMosaic Idealize.ShloMosaic.ValueIdx

/-- The 25 taps `(a, b)` in the order they are added: `a` outer, `b` inner. -/
def taps : List (Fin 5 × Fin 5) :=
  [(0, 0), (0, 1), (0, 2), (0, 3), (0, 4),
   (1, 0), (1, 1), (1, 2), (1, 3), (1, 4),
   (2, 0), (2, 1), (2, 2), (2, 3), (2, 4),
   (3, 0), (3, 1), (3, 2), (3, 3), (3, 4),
   (4, 0), (4, 1), (4, 2), (4, 3), (4, 4)]

/-- Coordinate `y` moved by a tap's offset `2 - a` stays in `[0, 128)`: `0 ≤ y + 2 - a < 128`, written on the
    naturals without the subtraction. -/
def Inside (a : Fin 5) (y : Fin 128) : Prop := a.val ≤ y.val + 2 ∧ y.val + 2 < 128 + a.val

instance (a : Fin 5) (y : Fin 128) : Decidable (Inside a y) := inferInstanceAs (Decidable (_ ∧ _))

/-- The moved coordinate `y + 2 - a`, for a coordinate that stays inside. -/
def moved (a : Fin 5) (y : Fin 128) (h : Inside a y) : Fin 128 := ⟨y.val + 2 - a.val, by have := h.1; have := h.2; omega⟩

/-- The plane of tap `(a, b)`: `5a + b`. -/
def plane (p : Fin 5 × Fin 5) : Fin 25 := ⟨5 * p.1.val + p.2.val, by have := p.1.isLt; have := p.2.isLt; omega⟩

/-- What tap `p = (a, b)` contributes at `(n, y, x)`: its plane at the moved position, or zero off the edge. -/
def tap (K : (⟨4, ![8, 25, 128, 128]⟩ : Shape).Idx → EReal) (p : Fin 5 × Fin 5) (n : Fin 8) (y x : Fin 128) : EReal :=
  if h : Inside p.1 y ∧ Inside p.2 x then K (ix4 n (plane p) (moved p.1 y h.1) (moved p.2 x h.2)) else 0

/-- The sum of the 25 taps at `(n, y, x)`, added left to right from zero. -/
def shifted (K : (⟨4, ![8, 25, 128, 128]⟩ : Shape).Idx → EReal) (n : Fin 8) (y x : Fin 128) : EReal :=
  taps.foldl (fun acc p => acc + tap K p n y x) 0

/-- The result array [8, 256, 128, 128]: every channel of `low_fea` times the tap sum of its batch entry. -/
def G (K : (⟨4, ![8, 25, 128, 128]⟩ : Shape).Idx → EReal) (L : (⟨4, ![8, 256, 128, 128]⟩ : Shape).Idx → EReal) :
    (⟨4, ![8, 256, 128, 128]⟩ : Shape).Idx → EReal :=
  fun i => L i * shifted K (i 0) (i 2) (i 3)

/-- A left fold of vector sums, read at an index, is the left fold of the entries' sums. -/
theorem foldl_add_apply {ι κ : Type} (f : ι → κ → EReal) (l : List ι) (init : κ → EReal) (j : κ) :
    (l.foldl (fun acc t => fun i => acc i + f t i) init) j = l.foldl (fun acc t => acc + f t j) (init j) := by
  induction l generalizing init with
  | nil => rfl
  | cons t l ih => exact ih _

end Cert.TapSum

end
-- ==== Proof.KernelTap.lean ====
/-
  One tap as the vector unit computes it, read at an entry.

  The kernel forms tap `(a, b)` from a whole 128 × 128 plane: it rotates the plane by `a - 2` along the rows and by
  `b - 2` along the columns (a negative amount written as the amount plus 128), so that entry `(y, x)` of the rotated
  plane is entry `((y + 2 - a) mod 128, (x + 2 - b) mod 128)` of the plane; and it keeps that entry only where
  `0 ≤ y + 2 - a < 128` and `0 ≤ x + 2 - b < 128`, a mask computed from the row and column numbers as 32-bit words
  with signed comparisons, putting zero elsewhere. Where the mask holds, the reduction mod 128 does nothing, so the
  entry kept is the plane's at the moved position: the tap of `Cert.TapSum`.

  The two facts about words — the mask word is one exactly when the coordinate stays inside, and the rotation reads
  the moved coordinate when it does — are statements over 5 offsets and 128 coordinates, decided by evaluation.
-/
import proofs.«139700_j20555713479255_2_alg».proof.Proof.TapSum
import Idealize.ShloMosaic.Lib.KernelVsHost
import Idealize.ShloMosaic.Lib.Pipeline.Value

noncomputable section

namespace Cert.TapSum

open Idealize.ShloMosaic Idealize.ShloMosaic.ValueIdx

/-- A plane. -/
abbrev P128 : Shape := ⟨2, ![128, 128]⟩

/-- The amount the plane is rotated by along an axis for offset index `a`: `a - 2` mod 128. -/
def rotAmt : Fin 5 → BitVec 32 := ![126#32, 127#32, 0#32, 1#32, 2#32]

/-- The offset `2 - a` as a 32-bit word (two's complement for the negative ones). -/
def offWord : Fin 5 → BitVec 32 := ![2#32, 1#32, 0#32, 4294967295#32, 4294967294#32]

/-- The mask word of one axis: coordinate `y` plus the offset is at least 0 and below 128, compared signed. -/
def axisMask (a : Fin 5) (y : BitVec 32) : BitVec 1 :=
  IntOp.andi (IntOp.cmpi .sge (IntOp.addi y (offWord a)) 0#32) (IntOp.cmpi .slt (IntOp.addi y (offWord a)) 128#32)

/-- The axis mask is one exactly when the moved coordinate stays inside. -/
theorem axisMask_eq : ∀ (a : Fin 5) (y : Fin 128),
    axisMask a (BitVec.ofNat 32 y.val) = if Inside a y then 1#1 else 0#1 := by
  decide +kernel

/-- Where the moved coordinate stays inside, rotating back by the amount, around the end, lands on it. -/
theorem rot_coord : ∀ (a : Fin 5) (y : Fin 128), Inside a y →
    (y.val + 128 - (rotAmt a).toNat % 128) % 128 = y.val + 2 - a.val := by
  decide +kernel

variable {F : FTy → Type} [FloatOps F]

/-- Tap `p = (a, b)` of a plane `chan`, as the vector unit forms it: the plane rotated along both axes, kept where the
    four comparisons hold, zero elsewhere. -/
def tapVec (hi0 : P128.Iotas .tc 32 [0]) (hi1 : P128.Iotas .tc 32 [1]) (hr0 : P128.Rotates 0 none) (hr1 : P128.Rotates 1 none)
    (chan : FVec F P128 .f32) (p : Fin 5 × Fin 5) : FVec F P128 .f32 :=
  select
    (andi (andi (andi
      (cmpi .sge (addi (iota .tc P128 32 [0] hi0) (broadcast P128 (offWord p.1))) (broadcast P128 0#32))
      (cmpi .slt (addi (iota .tc P128 32 [0] hi0) (broadcast P128 (offWord p.1))) (broadcast P128 128#32)))
      (cmpi .sge (addi (iota .tc P128 32 [1] hi1) (broadcast P128 (offWord p.2))) (broadcast P128 0#32)))
      (cmpi .slt (addi (iota .tc P128 32 [1] hi1) (broadcast P128 (offWord p.2))) (broadcast P128 128#32)))
    (dynamicRotate 1 (rotAmt p.2) none (dynamicRotate 0 (rotAmt p.1) none chan hr0) hr1)
    (broadcast P128 (Scalar.ofBits .f32 0x00000000#32))

/-- The plane rotated along both axes, at an entry whose moved coordinates stay inside, is the plane at the moved
    entry. -/
theorem rotated_apply {α : Type} (hr0 : P128.Rotates 0 none) (hr1 : P128.Rotates 1 none) (chan : P128.Idx → α)
    (a b : Fin 5) (y x : Fin 128) (hy : Inside a y) (hx : Inside b x) :
    dynamicRotate 1 (rotAmt b) none (dynamicRotate 0 (rotAmt a) none chan hr0) hr1 (ix2 y x)
      = chan (ix2 (moved a y hy) (moved b x hx)) := by
  refine (dynamicRotate_apply (1 : Fin 2) (rotAmt b) _ hr1 (ix2 y x) (ix2 y (moved b x hx)) ?_).trans ?_
  · intro d
    match d with
    | ⟨0, _⟩ => rfl
    | ⟨1, _⟩ => exact (rot_coord b x hx).symm
  · refine dynamicRotate_apply (0 : Fin 2) (rotAmt a) _ hr0 (ix2 y (moved b x hx)) (ix2 (moved a y hy) (moved b x hx)) ?_
    intro d
    match d with
    | ⟨0, _⟩ => exact (rot_coord a y hy).symm
    | ⟨1, _⟩ => rfl

/-- The four-way mask at `(y, x)` is one exactly when both moved coordinates stay inside. -/
theorem mask_apply (hi0 : P128.Iotas .tc 32 [0]) (hi1 : P128.Iotas .tc 32 [1]) (p : Fin 5 × Fin 5) (y x : Fin 128) :
    (andi (andi (andi
      (cmpi .sge (addi (iota .tc P128 32 [0] hi0) (broadcast P128 (offWord p.1))) (broadcast P128 0#32))
      (cmpi .slt (addi (iota .tc P128 32 [0] hi0) (broadcast P128 (offWord p.1))) (broadcast P128 128#32)))
      (cmpi .sge (addi (iota .tc P128 32 [1] hi1) (broadcast P128 (offWord p.2))) (broadcast P128 0#32)))
      (cmpi .slt (addi (iota .tc P128 32 [1] hi1) (broadcast P128 (offWord p.2))) (broadcast P128 128#32))) (ix2 y x)
      = if Inside p.1 y ∧ Inside p.2 x then 1#1 else 0#1 := by
  have e0 : iota .tc P128 32 [0] hi0 (ix2 y x) = BitVec.ofNat 32 y.val := iota_single_apply .tc P128 32 0 hi0 (ix2 y x)
  have e1 : iota .tc P128 32 [1] hi1 (ix2 y x) = BitVec.ofNat 32 x.val := iota_single_apply .tc P128 32 1 hi1 (ix2 y x)
  show IntOp.andi (IntOp.andi (IntOp.andi
      (IntOp.cmpi .sge (IntOp.addi (iota .tc P128 32 [0] hi0 (ix2 y x)) (offWord p.1)) 0#32)
      (IntOp.cmpi .slt (IntOp.addi (iota .tc P128 32 [0] hi0 (ix2 y x)) (offWord p.1)) 128#32))
      (IntOp.cmpi .sge (IntOp.addi (iota .tc P128 32 [1] hi1 (ix2 y x)) (offWord p.2)) 0#32))
      (IntOp.cmpi .slt (IntOp.addi (iota .tc P128 32 [1] hi1 (ix2 y x)) (offWord p.2)) 128#32) = _
  rw [e0, e1]
  have hrow := axisMask_eq p.1 y
  have hcol := axisMask_eq p.2 x
  unfold axisMask at hrow hcol
  unfold IntOp.andi at hrow hcol ⊢
  rw [BitVec.and_assoc, hrow, hcol]
  by_cases hy : Inside p.1 y <;> by_cases hx : Inside p.2 x <;> simp [hy, hx]

/-- At the ideal values, tap `p` of a plane read at `(y, x)` is the plane at the moved entry where both moved
    coordinates stay inside, and zero elsewhere. -/
theorem tapVec_apply (hi0 : P128.Iotas .tc 32 [0]) (hi1 : P128.Iotas .tc 32 [1]) (hr0 : P128.Rotates 0 none)
    (hr1 : P128.Rotates 1 none) (chan : FVec Ideal P128 .f32) (p : Fin 5 × Fin 5) (y x : Fin 128) :
    tapVec hi0 hi1 hr0 hr1 chan p (ix2 y x)
      = if h : Inside p.1 y ∧ Inside p.2 x then chan (ix2 (moved p.1 y h.1) (moved p.2 x h.2)) else (0 : EReal) := by
  unfold tapVec
  rw [select_apply, mask_apply hi0 hi1 p y x]
  by_cases h : Inside p.1 y ∧ Inside p.2 x
  · rw [if_pos h, dif_pos h, select_one]
    exact rotated_apply hr0 hr1 chan p.1 p.2 y x h.1 h.2
  · rw [if_neg h, dif_neg h, select_zero]
    exact Ideal.ofBits_zero_f32

end Cert.TapSum

end
-- ==== Proof.Block0.lean ====
/-
  The first kernel's body: the block of tap sums.

  At a grid point the first pallas_call is given a block [1, 25, 128, 128] of `kernel` (one batch entry) and writes a
  block [1, 128, 128]. Its body loads the 25 planes of the block one by one, forms each plane's tap on the vector unit
  (`Cert.TapSum.tapVec`), and adds the taps to an accumulator that starts as a zero splat, in the order of
  `Cert.TapSum.taps`; the accumulator is stored as the whole output block. So entry `(0, y, x)` of the output block is
  `Cert.TapSum.shifted` at `(n, y, x)` of any array whose batch entry `n` the input block is.
-/
import proofs.«139700_j20555713479255_2_alg».proof.Proof.Gen.KernelIdeal.Frame
import proofs.«139700_j20555713479255_2_alg».proof.Proof.KernelTap

set_option maxRecDepth 16384

noncomputable section

namespace Cert.KernelIdeal.Block0

open Idealize.ShloMosaic Idealize.ShloMosaic.TcCoe Idealize.ShloMosaic.ValueIdx Idealize.SL.Sem
open Cert.KernelIdeal Cert.KernelIdeal.Gen Cert.TapSum
open Idealize.ShloMosaic.Pipeline (Dat)

/-! ## The body's stored value is the fold of the taps -/

section Body
variable {F : FTy → Type} [FloatOps F]

/-- The plane of tap `p` lies inside the block. -/
theorem inb_plane (p : Fin 5 × Fin 5) :
    ∀ a, (![0, (plane p).val, 0, 0] : Fin 4 → Nat) a + S1x1x128x128.size a ≤ S1x25x128x128.size a := by
  intro a
  have := (plane p).isLt
  match a with
  | ⟨0, _⟩ => show 0 + 1 ≤ 1; omega
  | ⟨1, _⟩ => show (plane p).val + 1 ≤ 25; omega
  | ⟨2, _⟩ => show 0 + 128 ≤ 128; omega
  | ⟨3, _⟩ => show 0 + 128 ≤ 128; omega

/-- The plane of tap `p` loaded from the block and laid out as a 128 × 128 matrix. -/
def chanOf (x0 : Vec F S1x25x128x128 .f32) (p : Fin 5 × Fin 5) : FVec F S128x128 .f32 :=
  shapeCast S128x128
    (View.ld x0 (Rect.unit (s := S1x25x128x128) ![0, (plane p).val, 0, 0] S1x1x128x128.size (inb_plane p)))
    shapeCasts_S1x1x128x128_S128x128

/-- The accumulator after all 25 taps: from a zero splat, each plane's tap added on the right, in order. -/
def accum (x0 : Vec F S1x25x128x128 .f32) : FVec F S128x128 .f32 :=
  taps.foldl
    (fun acc p => addf acc (tapVec iota_S128x128_d0_w32 iota_S128x128_d1_w32 rotates_S128x128_d0 rotates_S128x128_d1 (chanOf x0 p) p))
    (broadcast S128x128 (Scalar.ofBits .f32 0x00000000#32))

theorem zero3 : (![0, 0, 0] : Fin 3 → Nat) = fun _ => 0 := funext fun a => by fin_cases a <;> rfl

/-- What the body leaves in the output block is that accumulator, given a leading unit axis: the printed chain of
    loads, rotations, masks, selects and sums is this fold, term for term. -/
theorem out_eq_accum (x0 : Vec F S1x25x128x128 .f32) :
    out0_1 x0 = shapeCast S1x128x128 (accum x0) shapeCasts_S128x128_S1x128x128 := by
  unfold out0_1
  rw [View.canon_unit_zero zero3]
  rfl

/-- Entry `(u, v)` of the plane of tap `p` is entry `(0, plane p, u, v)` of the block. -/
theorem chanOf_apply (x0 : Vec F S1x25x128x128 .f32) (p : Fin 5 × Fin 5) (u v : Fin 128) :
    chanOf x0 p (ix2 u v) = x0 (ix4 (0 : Fin 1) (plane p) u v) := by
  unfold chanOf
  refine (shapeCast_apply _ shapeCasts_S1x1x128x128_S128x128 (ix2 u v) (ix4 (0 : Fin 1) (0 : Fin 1) u v) ?_).trans ?_
  · rw [Shape.rowMajor_val_four, Shape.rowMajor_val_two]
    show ((0 * 1 + 0) * 128 + u.val) * 128 + v.val = u.val * 128 + v.val
    omega
  · refine congrArg x0 (funext fun a => Fin.ext ?_)
    match a with
    | ⟨0, _⟩ => show 0 + 1 * 0 = 0; rfl
    | ⟨1, _⟩ => show (plane p).val + 1 * 0 = (plane p).val; omega
    | ⟨2, _⟩ => show 0 + 1 * u.val = u.val; omega
    | ⟨3, _⟩ => show 0 + 1 * v.val = v.val; omega

end Body

/-! ## The output block at an entry, at the ideal values -/

/-- Entry `(0, y, x)` of the output block is the tap sum at `(n, y, x)` of any array `K` whose batch entry `n` the input
    block is. -/
theorem block_apply (K : (⟨4, ![8, 25, 128, 128]⟩ : Shape).Idx → EReal) (x0 : Vec Ideal S1x25x128x128 .f32) (n : Fin 8)
    (hx0 : ∀ (q : Fin 25) (u v : Fin 128), x0 (ix4 (0 : Fin 1) q u v) = K (ix4 n q u v))
    (z : Fin 1) (y x : Fin 128) :
    out0_1 x0 (ix3 z y x) = shifted K n y x := by
  rw [out_eq_accum]
  refine (shapeCast_apply _ shapeCasts_S128x128_S1x128x128 (ix3 z y x) (ix2 y x) ?_).trans ?_
  · rw [Shape.rowMajor_val_two, Shape.rowMajor_val_three]
    have hz : z.val = 0 := by have := z.isLt; omega
    show y.val * 128 + x.val = (z.val * 128 + y.val) * 128 + x.val
    omega
  · unfold accum shifted
    refine (foldl_add_apply
      (fun p => tapVec iota_S128x128_d0_w32 iota_S128x128_d1_w32 rotates_S128x128_d0 rotates_S128x128_d1 (chanOf x0 p) p)
      taps _ (ix2 y x)).trans ?_
    have hinit : (broadcast S128x128 (Scalar.ofBits (F := Ideal) .f32 0x00000000#32)) (ix2 y x) = (0 : EReal) :=
      Ideal.ofBits_zero_f32
    rw [hinit]
    have htap : ∀ p : Fin 5 × Fin 5,
        tapVec iota_S128x128_d0_w32 iota_S128x128_d1_w32 rotates_S128x128_d0 rotates_S128x128_d1 (chanOf x0 p) p (ix2 y x)
          = tap K p n y x := by
      intro p
      rw [tapVec_apply]
      unfold tap
      by_cases h : Inside p.1 y ∧ Inside p.2 x
      · rw [dif_pos h, dif_pos h, chanOf_apply, hx0]
      · rw [dif_neg h, dif_neg h]
    simp only [htap]

end Cert.KernelIdeal.Block0

end
-- ==== Proof.Region0.lean ====
/-
  The first kernel: the array of tap sums.

  The first pallas_call runs once per batch entry `n` (a grid of 8 points). At point `n` it is given the block of
  `kernel` at batch entry `n` and writes the block [1, 128, 128] of its result at batch entry `n`, whose entry
  `(0, y, x)` is the tap sum at `(n, y, x)` (`Cert.KernelIdeal.Block0.block_apply`). The eight blocks tile the result, so
  the result array [8, 128, 128] holds `shifted K n y x` at `(n, y, x)`, `K` being the kernel's first argument as the
  region finds it.
-/
import proofs.«139700_j20555713479255_2_alg».proof.Proof.Gen.KernelIdeal.Frame
import proofs.«139700_j20555713479255_2_alg».proof.Proof.Block0

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen Cert.TapSum Cert.KernelIdeal.Block0
open Idealize.ShloMosaic.Pipeline (Dat)

/-! ## From the eight blocks to the array -/

section Array
variable (V : (c : Dev nD) → (b : Ref sig .tc) → Buf (Elt Ideal) ((c : Thread nD τ).loc b))

/-- The printed index maps over the grid: at point `t` both windows sit at batch entry `t` and at block 0 of every
    other axis. -/
theorem index_facts : ∀ t : Fin cfg0.N,
    win0_0.index t (0 : Fin 4) = t.val ∧ win0_0.index t (1 : Fin 4) = 0 ∧ win0_0.index t (2 : Fin 4) = 0
    ∧ win0_0.index t (3 : Fin 4) = 0
    ∧ win0_1.index t (0 : Fin 3) = t.val ∧ win0_1.index t (1 : Fin 3) = 0 ∧ win0_1.index t (2 : Fin 3) = 0 :=
  (by decide +kernel : ∀ t : Fin grid0.N, _)

/-- The result array: the tap sum of the first argument at every `(n, y, x)`. -/
def sums (K : (⟨4, ![8, 25, 128, 128]⟩ : Shape).Idx → EReal) : S8x128x128.Idx → EReal :=
  fun i => shifted K (i 0) (i 1) (i 2)

/-- What point `t` writes back is block `t` of the array of tap sums. -/
theorem flushed_eq (c : Dev nD) (t : Fin cfg0.N) :
    (dat0 V c).flushed 1 t = ((cfg0.win 1).blk t).view.read (Elt Ideal) (sums (V c main_arg0)) := by
  show (cfg0.win 1).cut (grid0.coords t) ((dat0 V c).after 1 t) = _
  rw [after0_1]
  obtain ⟨e0, e1, e2, e3, f0, f1, f2⟩ := index_facts t
  have ht : t.val < 8 := t.isLt
  funext j
  obtain ⟨z, y, x, rfl⟩ : ∃ (z : Fin 1) (y x : Fin 128), j = ix3 z y x := ⟨j 0, j 1, j 2, eq_ix3 j⟩
  have hz : z.val = 0 := by have := z.isLt; omega
  -- an uncut block is written back whole, entry for entry, and a block of an array reads the array at the entry's
  -- place in it: both hold of any block and of any array
  have hcut : ∀ O : Vec Ideal S1x128x128 .f32, (cfg0.win 1).cut (grid0.coords t) O (ix3 z y x) = O (ix3 z y x) :=
    fun O => congrArg O (funext fun a => Fin.ext rfl)
  have hread : ∀ A : S8x128x128.Idx → EReal,
      ((cfg0.win 1).blk t).view.read (Elt Ideal) A (ix3 z y x) = A (((cfg0.win 1).blk t).view.emb (ix3 z y x)) :=
    fun _ => rfl
  refine (hcut _).trans (Eq.trans ?_ (hread _).symm)
  refine (block_apply (V c main_arg0) (iblk0 V c 0 t) ⟨t.val, ht⟩ ?_ z y x).trans ?_
  rotate_left
  · unfold sums
    have h0 : (((cfg0.win 1).blk t).view.emb (ix3 z y x)) 0 = (⟨t.val, ht⟩ : Fin 8) := Fin.ext (by
      show win0_1.index t (0 : Fin 3) * 1 + 1 * z.val = t.val; omega)
    have h1 : (((cfg0.win 1).blk t).view.emb (ix3 z y x)) 1 = y := Fin.ext (by
      show win0_1.index t (1 : Fin 3) * 128 + 1 * y.val = y.val; omega)
    have h2 : (((cfg0.win 1).blk t).view.emb (ix3 z y x)) 2 = x := Fin.ext (by
      show win0_1.index t (2 : Fin 3) * 128 + 1 * x.val = x.val; omega)
    rw [h0, h1, h2]
  · intro q u v
    show V c main_arg0 (((cfg0.win 0).blk t).view.emb (ix4 (0 : Fin 1) q u v)) = V c main_arg0 (ix4 (⟨t.val, ht⟩ : Fin 8) q u v)
    refine congrArg (V c main_arg0) (funext fun a => Fin.ext ?_)
    match a with
    | ⟨0, _⟩ => show win0_0.index t (0 : Fin 4) * 1 + 1 * 0 = t.val; omega
    | ⟨1, _⟩ => show win0_0.index t (1 : Fin 4) * 25 + 1 * q.val = q.val; omega
    | ⟨2, _⟩ => show win0_0.index t (2 : Fin 4) * 128 + 1 * u.val = u.val; omega
    | ⟨3, _⟩ => show win0_0.index t (3 : Fin 4) * 128 + 1 * v.val = v.val; omega

/-- An index of the result array is in point `t`'s block iff each coordinate is in the block's range on its axis. -/
theorem mem_blk (t : Fin cfg0.N) (i : S8x128x128.Idx) :
    i ∈ ((cfg0.win 1).blk t).view.set ↔ ∀ a : Fin 3, win0_1.index t a * S1x128x128.size a ≤ (i a).val
      ∧ (i a).val < win0_1.index t a * S1x128x128.size a + S1x128x128.size a := by
  show i ∈ ((View.whole main_v0).slice (win0_1.rect t)).set ↔ _
  rw [View.set_slice_whole, Rect.mem_set_unit]
  exact Iff.rfl

/-- Every index `(n, y, x)` of the result array is in the block point `n` writes back. -/
theorem covered (i : S8x128x128.Idx) :
    ∃ t : Fin cfg0.N, (cfg0.win 1).flush t = true ∧ i ∈ ((cfg0.win 1).blk t).view.set := by
  have hi0 : (i 0).val < 8 := (i 0).isLt
  have hi1 : (i 1).val < 128 := (i 1).isLt
  have hi2 : (i 2).val < 128 := (i 2).isLt
  refine ⟨⟨(i 0).val, hi0⟩, flush0_1 _, ?_⟩
  obtain ⟨-, -, -, -, f0, f1, f2⟩ := index_facts ⟨(i 0).val, hi0⟩
  rw [mem_blk]
  intro a
  match a with
  | ⟨0, _⟩ =>
    show win0_1.index ⟨(i 0).val, hi0⟩ (0 : Fin 3) * 1 ≤ (i 0).val ∧ (i 0).val < win0_1.index ⟨(i 0).val, hi0⟩ (0 : Fin 3) * 1 + 1
    rw [f0]; show (i 0).val * 1 ≤ (i 0).val ∧ (i 0).val < (i 0).val * 1 + 1; omega
  | ⟨1, _⟩ =>
    show win0_1.index ⟨(i 0).val, hi0⟩ (1 : Fin 3) * 128 ≤ (i 1).val ∧ (i 1).val < win0_1.index ⟨(i 0).val, hi0⟩ (1 : Fin 3) * 128 + 128
    rw [f1]; omega
  | ⟨2, _⟩ =>
    show win0_1.index ⟨(i 0).val, hi0⟩ (2 : Fin 3) * 128 ≤ (i 2).val ∧ (i 2).val < win0_1.index ⟨(i 0).val, hi0⟩ (2 : Fin 3) * 128 + 128
    rw [f2]; omega

/-- THE FIRST KERNEL'S RESULT ARRAY after its region, entered at contents `V`: the tap sums of `V`'s first argument. -/
theorem array_eq (c : Dev nD) : (dat0 V c).arrAt 1 cfg0.N = sums (V c main_arg0) :=
  (dat0 V c).arrAt_eq_of_cover 1 (sums (V c main_arg0)) (fun t _ => flushed_eq V c t) covered

end Array

end Cert.KernelIdeal.Region0

end
-- ==== Proof.Region1.lean ====
/-
  The second kernel: every channel times the tap sums.

  The second pallas_call runs on a grid of 8 × 2 points `(n, h)`: batch entry `n`, half `h` of the 256 channels. At
  a point it is given the block [1, 128, 128] of the first kernel's result at batch entry `n` and the block
  [1, 128, 128, 128] of `low_fea` at batch entry `n` and channels `128h … 128h + 127`, and writes the block of its
  result at the same place: the `low_fea` block times the sum block laid along the channel axis, entry by entry. The
  sixteen blocks tile the result [8, 256, 128, 128], which therefore holds at `(n, c, y, x)` the entry of `low_fea`
  there times the entry `(n, y, x)` of the first kernel's result, as the region finds the two arrays.
-/
import proofs.«139700_j20555713479255_2_alg».proof.Proof.Gen.KernelIdeal.Frame
import Idealize.ShloMosaic.Lib.ValueIdx
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen
open Idealize.ShloMosaic.Pipeline (Dat)

theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-! ## The output block at an entry, at the ideal values -/

/-- The sum block laid along the channel axis, read at `(z, c, y, x)`, is its entry `(0, y, x)`. -/
theorem laid_apply (s : Vec Ideal S1x128x128 .f32) (z : Fin 1) (ch y x : Fin 128) :
    broadcastTo S1x128x128x128
      (shapeCast S1x1x128x128 (shapeCast S1x128x128 s shapeCasts_S1x128x128_S1x128x128) shapeCasts_S1x128x128_S1x1x128x128)
      broadcasts_S1x1x128x128_S1x128x128x128 (ix4 z ch y x) = s (ix3 (0 : Fin 1) y x) := by
  refine (broadcastTo_apply _ broadcasts_S1x1x128x128_S1x128x128x128 (ix4 z ch y x) (ix4 (0 : Fin 1) (0 : Fin 1) y x) ?_).trans ?_
  · intro a
    match a with
    | ⟨0, _⟩ => rfl
    | ⟨1, _⟩ => rfl
    | ⟨2, _⟩ => rfl
    | ⟨3, _⟩ => rfl
  · refine (shapeCast_apply _ shapeCasts_S1x128x128_S1x1x128x128 (ix4 (0 : Fin 1) (0 : Fin 1) y x) (ix3 (0 : Fin 1) y x) ?_).trans ?_
    · rw [Shape.rowMajor_val_three, Shape.rowMajor_val_four]
      show (0 * 128 + y.val) * 128 + x.val = ((0 * 1 + 0) * 128 + y.val) * 128 + x.val
      omega
    · rw [shapeCast_self]

/-- Entry `(z, c, y, x)` of the output block is the `low_fea` block's entry there times the sum block's `(0, y, x)`. -/
theorem block_apply (s : Vec Ideal S1x128x128 .f32) (l : Vec Ideal S1x128x128x128 .f32) (z : Fin 1) (ch y x : Fin 128) :
    out1_2 s l (ix4 z ch y x) = l (ix4 z ch y x) * s (ix3 (0 : Fin 1) y x) := by
  unfold out1_2
  rw [View.canon_unit_zero zero4]
  simp only [View.ld_unit_zero (S := S1x128x128) zero3, View.ld_unit_zero (S := S1x128x128x128) zero4]
  unfold k1_pay1
  refine (mulf_apply _ _ _).trans ?_
  exact congrArg (l (ix4 z ch y x) * ·) (laid_apply s z ch y x)

/-! ## From the sixteen blocks to the array -/

section Array
variable (V : (c : Dev nD) → (b : Ref sig .tc) → Buf (Elt Ideal) ((c : Thread nD τ).loc b))

/-- The printed index maps over the grid: point `t` is batch entry `t / 2` and channel half `t % 2`; the sum window
    sits at the batch entry, the other two at the batch entry and the half. -/
theorem index_facts : ∀ t : Fin cfg1.N,
    win1_0.index t (0 : Fin 3) = t.val / 2 ∧ win1_0.index t (1 : Fin 3) = 0 ∧ win1_0.index t (2 : Fin 3) = 0
    ∧ win1_1.index t (0 : Fin 4) = t.val / 2 ∧ win1_1.index t (1 : Fin 4) = t.val % 2 ∧ win1_1.index t (2 : Fin 4) = 0
    ∧ win1_1.index t (3 : Fin 4) = 0
    ∧ win1_2.index t (0 : Fin 4) = t.val / 2 ∧ win1_2.index t (1 : Fin 4) = t.val % 2 ∧ win1_2.index t (2 : Fin 4) = 0
    ∧ win1_2.index t (3 : Fin 4) = 0 :=
  (by decide +kernel : ∀ t : Fin grid1.N, _)

/-- The result array from the two arrays the region reads: `L` times `S` laid along the channel axis. -/
def scaled (L : S8x256x128x128.Idx → EReal) (S : S8x128x128.Idx → EReal) : S8x256x128x128.Idx → EReal :=
  fun i => L i * S (ix3 (i 0) (i 2) (i 3))

/-- What point `t` writes back is block `t` of that array. -/
theorem flushed_eq (c : Dev nD) (t : Fin cfg1.N) :
    (dat1 V c).flushed 2 t = ((cfg1.win 2).blk t).view.read (Elt Ideal) (scaled (V c main_arg1) (V c main_v0)) := by
  show (cfg1.win 2).cut (grid1.coords t) ((dat1 V c).after 2 t) = _
  rw [after1_2]
  obtain ⟨a0, a1, a2, b0, b1, b2, b3, c0, c1, c2, c3⟩ := index_facts t
  funext j
  obtain ⟨z, ch, y, x, rfl⟩ : ∃ (z : Fin 1) (ch y x : Fin 128), j = ix4 z ch y x := ⟨j 0, j 1, j 2, j 3, eq_ix4 j⟩
  have hz : z.val = 0 := by have := z.isLt; omega
  show out1_2 (iblk1 V c 0 t) (iblk1 V c 1 t) (ix4 z ch y x) = scaled (V c main_arg1) (V c main_v0) (((cfg1.win 2).blk t).view.emb (ix4 z ch y x))
  rw [block_apply]
  unfold scaled
  have hL : iblk1 V c 1 t (ix4 z ch y x) = V c main_arg1 (((cfg1.win 2).blk t).view.emb (ix4 z ch y x)) := by
    show V c main_arg1 (((cfg1.win 1).blk t).view.emb (ix4 z ch y x)) = _
    refine congrArg (V c main_arg1) (funext fun a => Fin.ext ?_)
    match a with
    | ⟨0, _⟩ => show win1_1.index t (0 : Fin 4) * 1 + 1 * z.val = win1_2.index t (0 : Fin 4) * 1 + 1 * z.val; omega
    | ⟨1, _⟩ => show win1_1.index t (1 : Fin 4) * 128 + 1 * ch.val = win1_2.index t (1 : Fin 4) * 128 + 1 * ch.val; omega
    | ⟨2, _⟩ => show win1_1.index t (2 : Fin 4) * 128 + 1 * y.val = win1_2.index t (2 : Fin 4) * 128 + 1 * y.val; omega
    | ⟨3, _⟩ => show win1_1.index t (3 : Fin 4) * 128 + 1 * x.val = win1_2.index t (3 : Fin 4) * 128 + 1 * x.val; omega
  have hS : iblk1 V c 0 t (ix3 (0 : Fin 1) y x)
      = V c main_v0 (ix3 ((((cfg1.win 2).blk t).view.emb (ix4 z ch y x)) 0) ((((cfg1.win 2).blk t).view.emb (ix4 z ch y x)) 2)
          ((((cfg1.win 2).blk t).view.emb (ix4 z ch y x)) 3)) := by
    show V c main_v0 (((cfg1.win 0).blk t).view.emb (ix3 (0 : Fin 1) y x)) = _
    refine congrArg (V c main_v0) (funext fun a => Fin.ext ?_)
    match a with
    | ⟨0, _⟩ => show win1_0.index t (0 : Fin 3) * 1 + 1 * 0 = win1_2.index t (0 : Fin 4) * 1 + 1 * z.val; omega
    | ⟨1, _⟩ => show win1_0.index t (1 : Fin 3) * 128 + 1 * y.val = win1_2.index t (2 : Fin 4) * 128 + 1 * y.val; omega
    | ⟨2, _⟩ => show win1_0.index t (2 : Fin 3) * 128 + 1 * x.val = win1_2.index t (3 : Fin 4) * 128 + 1 * x.val; omega
  rw [hL, hS]

/-- An index of the result array is in point `t`'s block iff each coordinate is in the block's range on its axis. -/
theorem mem_blk (t : Fin cfg1.N) (i : S8x256x128x128.Idx) :
    i ∈ ((cfg1.win 2).blk t).view.set ↔ ∀ a : Fin 4, win1_2.index t a * S1x128x128x128.size a ≤ (i a).val
      ∧ (i a).val < win1_2.index t a * S1x128x128x128.size a + S1x128x128x128.size a := by
  show i ∈ ((View.whole main_v1).slice (win1_2.rect t)).set ↔ _
  rw [View.set_slice_whole, Rect.mem_set_unit]
  exact Iff.rfl

/-- Every index `(n, c, y, x)` of the result array is in the block the point `(n, c / 128)` writes back. -/
theorem covered (i : S8x256x128x128.Idx) :
    ∃ t : Fin cfg1.N, (cfg1.win 2).flush t = true ∧ i ∈ ((cfg1.win 2).blk t).view.set := by
  have hi0 : (i 0).val < 8 := (i 0).isLt
  have hi1 : (i 1).val < 256 := (i 1).isLt
  have hi2 : (i 2).val < 128 := (i 2).isLt
  have hi3 : (i 3).val < 128 := (i 3).isLt
  have ht : (i 0).val * 2 + (i 1).val / 128 < 16 := by omega
  refine ⟨⟨(i 0).val * 2 + (i 1).val / 128, ht⟩, flush1_2 _, ?_⟩
  obtain ⟨-, -, -, -, -, -, -, c0, c1, c2, c3⟩ := index_facts ⟨(i 0).val * 2 + (i 1).val / 128, ht⟩
  rw [mem_blk]
  intro a
  match a with
  | ⟨0, _⟩ =>
    show win1_2.index ⟨(i 0).val * 2 + (i 1).val / 128, ht⟩ (0 : Fin 4) * 1 ≤ (i 0).val
      ∧ (i 0).val < win1_2.index ⟨(i 0).val * 2 + (i 1).val / 128, ht⟩ (0 : Fin 4) * 1 + 1
    rw [c0]; show ((i 0).val * 2 + (i 1).val / 128) / 2 * 1 ≤ (i 0).val ∧ (i 0).val < ((i 0).val * 2 + (i 1).val / 128) / 2 * 1 + 1; omega
  | ⟨1, _⟩ =>
    show win1_2.index ⟨(i 0).val * 2 + (i 1).val / 128, ht⟩ (1 : Fin 4) * 128 ≤ (i 1).val
      ∧ (i 1).val < win1_2.index ⟨(i 0).val * 2 + (i 1).val / 128, ht⟩ (1 : Fin 4) * 128 + 128
    rw [c1]; show ((i 0).val * 2 + (i 1).val / 128) % 2 * 128 ≤ (i 1).val ∧ (i 1).val < ((i 0).val * 2 + (i 1).val / 128) % 2 * 128 + 128; omega
  | ⟨2, _⟩ =>
    show win1_2.index ⟨(i 0).val * 2 + (i 1).val / 128, ht⟩ (2 : Fin 4) * 128 ≤ (i 2).val
      ∧ (i 2).val < win1_2.index ⟨(i 0).val * 2 + (i 1).val / 128, ht⟩ (2 : Fin 4) * 128 + 128
    rw [c2]; omega
  | ⟨3, _⟩ =>
    show win1_2.index ⟨(i 0).val * 2 + (i 1).val / 128, ht⟩ (3 : Fin 4) * 128 ≤ (i 3).val
      ∧ (i 3).val < win1_2.index ⟨(i 0).val * 2 + (i 1).val / 128, ht⟩ (3 : Fin 4) * 128 + 128
    rw [c3]; omega

/-- THE SECOND KERNEL'S RESULT ARRAY after its region, entered at contents `V`: `V`'s `low_fea` times `V`'s first-kernel
    result laid along the channel axis. -/
theorem array_eq (c : Dev nD) : (dat1 V c).arrAt 2 cfg1.N = scaled (V c main_arg1) (V c main_v0) :=
  (dat1 V c).arrAt_eq_of_cover 2 (scaled (V c main_arg1) (V c main_v0)) (fun t _ => flushed_eq V c t) covered

end Array

end Cert.KernelIdeal.Region1

end
-- ==== Proof.KernelRun.lean ====
/-
  The kernel's run, with its result named.

  @main is two kernel regions, one after the other, with no host operation between or around them. The buffer contents
  at the three boundaries are a fold from the launch memory: at the first region's exit its result array holds what its
  write-backs leave and every other buffer what it held; likewise at the second's. Read back through that fold,

    the result `main_v1` ends holding the second kernel's array at its region's entry contents:
      `low_fea` (untouched by the first region, so the launch memory's) times the first kernel's result array there
      laid along the channel axis,
    and the first kernel's result array there is what the first region left: the tap sums of `kernel` at launch.

  So every weakly fair execution of @main terminates with `main_v1` at `Cert.TapSum.G` of the two argument arrays as
  launched, and the arguments unchanged.
-/
import proofs.«139700_j20555713479255_2_alg».proof.Proof.Gen.KernelIdeal.Frame
import proofs.«139700_j20555713479255_2_alg».proof.Proof.Region0
import proofs.«139700_j20555713479255_2_alg».proof.Proof.Region1

set_option maxRecDepth 16384

noncomputable section

namespace Cert.KernelIdeal.WholeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.TapSum

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution of @main terminates, nothing faulting, with every buffer that outlives the regions at
    the last boundary's contents: the two regions run as segments, each entered from what the one before left, and the
    last thread state read against the final memory. -/
theorem run_buffers : θ_run defs (onTc (τ := τ) (main (F := Ideal))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h => h)

/-- The first kernel's result array at the second region's entry: the tap sums of `kernel` as launched. -/
theorem sums_at_entry (c : Dev nD) :
    V1 m ρ c main_v0 = Region0.sums (m ((c : Thread nD τ).loc main_arg0)) :=
  (W1_arr m ρ c 1).trans (Region0.array_eq (V0 m ρ) c)

/-- `low_fea` at the second region's entry is the launch memory's: the first region does not touch it. -/
theorem low_at_entry (c : Dev nD) : V1 m ρ c main_arg1 = m ((c : Thread nD τ).loc main_arg1) :=
  W1_of_ne m ρ c main_arg1 (by decide)

/-- The result buffer at the last boundary is `G` of the argument arrays as launched. -/
theorem result_at_exit (c : Dev nD) :
    W2 m ρ c (Proc.devRef .tc main_v1) = G (m ((c : Thread nD τ).loc main_arg0)) (m ((c : Thread nD τ).loc main_arg1)) := by
  refine (W2_arr m ρ c 2).trans ((Region1.array_eq (V1 m ρ) c).trans ?_)
  rw [sums_at_entry, low_at_entry]
  funext i
  unfold Region1.scaled Region0.sums G
  rfl

/-- THE KERNEL'S RUN: every weakly fair execution of @main terminates, nothing faulting, with the result at `G` of the
    argument arrays as launched and the arguments unchanged. -/
theorem run : θ_run defs (onTc (τ := τ) (main (F := Ideal))) ⟨m, fun _ => 0, ρ⟩ (fun r => ∀ c : Dev nD,
      r.2.mem ((c : Thread nD τ).loc main_v1) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c =>
      ⟨(h c _ (mem_uc main_v1 (by decide))).trans (result_at_exit m ρ c),
       (h c _ (mem_uc main_arg0 (by decide))).trans (W2_main_arg0 m ρ c),
       (h c _ (mem_uc main_arg1 (by decide))).trans (W2_main_arg1 m ρ c)⟩)
    (run_buffers m ρ)

end Cert.KernelIdeal.WholeRun

end
-- ==== Proof.RefValue.lean ====
/-
  The reference computes the same function.

  The reference pads `kernel` with two rows and two columns of zeros on each side of every plane ([8, 25, 132, 132]),
  and for tap `(a, b)` cuts from plane `5a + b` of the padded array the 128 × 128 window starting at row `4 - a` and
  column `4 - b`. Entry `(y, x)` of that window is entry `(4 - a + y, 4 - b + x)` of the padded plane: inside the
  original plane it is the plane's entry `(y + 2 - a, x + 2 - b)`, and in the border it is the padding value, the
  integer zero converted, which is zero. That is the tap of `Cert.TapSum`. The 25 windows are added to a zero array
  one after the other in the order of `Cert.TapSum.taps`, the sum is laid along the channel axis, and `low_fea` is
  multiplied by it.
-/
import proofs.«139700_j20555713479255_2_alg».proof.Proof.Gen.ReferenceIdeal.Read
import proofs.«139700_j20555713479255_2_alg».proof.Proof.TapSum
import Idealize.ShloMosaic.Lib.KernelVsHost

noncomputable section

namespace Cert.ReferenceIdeal.RefValue

open Idealize.ShloMosaic Idealize.ShloMosaic.ValueIdx Cert.ReferenceIdeal Cert.ReferenceIdeal.Gen Cert.ReferenceIdeal.Read Cert.TapSum

/-- The padding value, the integer zero converted to a float, is zero. -/
theorem pad_value (i : S_.Idx) : val_main_call0_v0 (F := Ideal) i = (0 : EReal) :=
  sitofp_zero (φ := .f32)

/-- The padded array at `(n, 5a + b, 4 - a + y, 4 - b + x)` (the last two coordinates given by what they add up to) is
    tap `(a, b)` at `(n, y, x)`: the plane's moved entry inside the plane, the padding's zero in the border. -/
theorem padded_at (K : (⟨4, ![8, 25, 128, 128]⟩ : Shape).Idx → EReal) (p : Fin 5 × Fin 5) (n : Fin 8) (y x : Fin 128)
    (k : S8x25x132x132.Idx) (h0 : (k 0).val = n.val) (h1 : (k 1).val = (plane p).val)
    (h2 : (k 2).val + p.1.val = 4 + y.val) (h3 : (k 3).val + p.2.val = 4 + x.val) :
    val_main_v0 (F := Ideal) K k = tap K p n y x := by
  unfold val_main_v0 tap
  by_cases h : Inside p.1 y ∧ Inside p.2 x
  · rw [dif_pos h]
    refine pad_apply_of_inside _ _ _ K _ _ h_S_ k (ix4 n (plane p) (moved p.1 y h.1) (moved p.2 x h.2)) ?_
    have hy := h.1; have hx := h.2
    unfold Inside at hy hx
    intro a
    match a with
    | ⟨0, _⟩ => show (k 0).val = 0 + n.val * (0 + 1); omega
    | ⟨1, _⟩ => show (k 1).val = 0 + (plane p).val * (0 + 1); omega
    | ⟨2, _⟩ => show (k 2).val = 2 + (y.val + 2 - p.1.val) * (0 + 1); omega
    | ⟨3, _⟩ => show (k 3).val = 2 + (x.val + 2 - p.2.val) * (0 + 1); omega
  · rw [dif_neg h]
    rcases not_and_or.mp h with hy | hx
    · refine (pad_apply_of_not_inside _ _ _ K _ _ h_S_ k (2 : Fin 4) ?_).trans (pad_value _)
      unfold Inside at hy
      show ¬(2 ≤ (k 2).val ∧ ((k 2).val - 2) % (0 + 1) = 0 ∧ ((k 2).val - 2) / (0 + 1) < 128)
      rw [Nat.zero_add, Nat.div_one, Nat.mod_one]
      omega
    · refine (pad_apply_of_not_inside _ _ _ K _ _ h_S_ k (3 : Fin 4) ?_).trans (pad_value _)
      unfold Inside at hx
      show ¬(2 ≤ (k 3).val ∧ ((k 3).val - 2) % (0 + 1) = 0 ∧ ((k 3).val - 2) / (0 + 1) < 128)
      rw [Nat.zero_add, Nat.div_one, Nat.mod_one]
      omega

/-! ## The 25 windows, each a tap

Each is the same reading: the reshape and the slice read at an index (the generated lemmas), then `padded_at` with the
window's plane, starting row and starting column. -/

/-- Tap (0, 0): plane 0 of the padded array, rows from 4, columns from 4. -/
theorem ref_tap_0 (K : (⟨4, ![8, 25, 128, 128]⟩ : Shape).Idx → EReal) (n : Fin 8) (y x : Fin 128) :
    val_main_v3 (F := Ideal) K (ix3 n y x) = tap K (0, 0) n y x := by
  have hn := n.isLt; have hy := y.isLt; have hx := x.isLt
  rw [val_main_v3_apply, val_main_v2_apply]
  refine padded_at K (0, 0) n y x _ ?_ ?_ ?_ ?_
  · show ((n.val * 128 + y.val) * 128 + x.val) / 16384 = n.val; omega
  · show 0 + 0 = 5 * 0 + 0; rfl
  · show 4 + ((n.val * 128 + y.val) * 128 + x.val) / 128 % 128 + 0 = 4 + y.val; omega
  · show 4 + ((n.val * 128 + y.val) * 128 + x.val) % 128 + 0 = 4 + x.val; omega

/-- Tap (0, 1): plane 1 of the padded array, rows from 4, columns from 3. -/
theorem ref_tap_1 (K : (⟨4, ![8, 25, 128, 128]⟩ : Shape).Idx → EReal) (n : Fin 8) (y x : Fin 128) :
    val_main_v6 (F := Ideal) K (ix3 n y x) = tap K (0, 1) n y x := by
  have hn := n.isLt; have hy := y.isLt; have hx := x.isLt
  rw [val_main_v6_apply, val_main_v5_apply]
  refine padded_at K (0, 1) n y x _ ?_ ?_ ?_ ?_
  · show ((n.val * 128 + y.val) * 128 + x.val) / 16384 = n.val; omega
  · show 0 + 1 = 5 * 0 + 1; rfl
  · show 4 + ((n.val * 128 + y.val) * 128 + x.val) / 128 % 128 + 0 = 4 + y.val; omega
  · show 3 + ((n.val * 128 + y.val) * 128 + x.val) % 128 + 1 = 4 + x.val; omega

/-- Tap (0, 2): plane 2 of the padded array, rows from 4, columns from 2. -/
theorem ref_tap_2 (K : (⟨4, ![8, 25, 128, 128]⟩ : Shape).Idx → EReal) (n : Fin 8) (y x : Fin 128) :
    val_main_v9 (F := Ideal) K (ix3 n y x) = tap K (0, 2) n y x := by
  have hn := n.isLt; have hy := y.isLt; have hx := x.isLt
  rw [val_main_v9_apply, val_main_v8_apply]
  refine padded_at K (0, 2) n y x _ ?_ ?_ ?_ ?_
  · show ((n.val * 128 + y.val) * 128 + x.val) / 16384 = n.val; omega
  · show 0 + 2 = 5 * 0 + 2; rfl
  · show 4 + ((n.val * 128 + y.val) * 128 + x.val) / 128 % 128 + 0 = 4 + y.val; omega
  · show 2 + ((n.val * 128 + y.val) * 128 + x.val) % 128 + 2 = 4 + x.val; omega

/-- Tap (0, 3): plane 3 of the padded array, rows from 4, columns from 1. -/
theorem ref_tap_3 (K : (⟨4, ![8, 25, 128, 128]⟩ : Shape).Idx → EReal) (n : Fin 8) (y x : Fin 128) :
    val_main_v12 (F := Ideal) K (ix3 n y x) = tap K (0, 3) n y x := by
  have hn := n.isLt; have hy := y.isLt; have hx := x.isLt
  rw [val_main_v12_apply, val_main_v11_apply]
  refine padded_at K (0, 3) n y x _ ?_ ?_ ?_ ?_
  · show ((n.val * 128 + y.val) * 128 + x.val) / 16384 = n.val; omega
  · show 0 + 3 = 5 * 0 + 3; rfl
  · show 4 + ((n.val * 128 + y.val) * 128 + x.val) / 128 % 128 + 0 = 4 + y.val; omega
  · show 1 + ((n.val * 128 + y.val) * 128 + x.val) % 128 + 3 = 4 + x.val; omega

/-- Tap (0, 4): plane 4 of the padded array, rows from 4, columns from 0. -/
theorem ref_tap_4 (K : (⟨4, ![8, 25, 128, 128]⟩ : Shape).Idx → EReal) (n : Fin 8) (y x : Fin 128) :
    val_main_v15 (F := Ideal) K (ix3 n y x) = tap K (0, 4) n y x := by
  have hn := n.isLt; have hy := y.isLt; have hx := x.isLt
  rw [val_main_v15_apply, val_main_v14_apply]
  refine padded_at K (0, 4) n y x _ ?_ ?_ ?_ ?_
  · show ((n.val * 128 + y.val) * 128 + x.val) / 16384 = n.val; omega
  · show 0 + 4 = 5 * 0 + 4; rfl
  · show 4 + ((n.val * 128 + y.val) * 128 + x.val) / 128 % 128 + 0 = 4 + y.val; omega
  · show ((n.val * 128 + y.val) * 128 + x.val) % 128 + 4 = 4 + x.val; omega

/-- Tap (1, 0): plane 5 of the padded array, rows from 3, columns from 4. -/
theorem ref_tap_5 (K : (⟨4, ![8, 25, 128, 128]⟩ : Shape).Idx → EReal) (n : Fin 8) (y x : Fin 128) :
    val_main_v18 (F := Ideal) K (ix3 n y x) = tap K (1, 0) n y x := by
  have hn := n.isLt; have hy := y.isLt; have hx := x.isLt
  rw [val_main_v18_apply, val_main_v17_apply]
  refine padded_at K (1, 0) n y x _ ?_ ?_ ?_ ?_
  · show ((n.val * 128 + y.val) * 128 + x.val) / 16384 = n.val; omega
  · show 0 + 5 = 5 * 1 + 0; rfl
  · show 3 + ((n.val * 128 + y.val) * 128 + x.val) / 128 % 128 + 1 = 4 + y.val; omega
  · show 4 + ((n.val * 128 + y.val) * 128 + x.val) % 128 + 0 = 4 + x.val; omega

/-- Tap (1, 1): plane 6 of the padded array, rows from 3, columns from 3. -/
theorem ref_tap_6 (K : (⟨4, ![8, 25, 128, 128]⟩ : Shape).Idx → EReal) (n : Fin 8) (y x : Fin 128) :
    val_main_v21 (F := Ideal) K (ix3 n y x) = tap K (1, 1) n y x := by
  have hn := n.isLt; have hy := y.isLt; have hx := x.isLt
  rw [val_main_v21_apply, val_main_v20_apply]
  refine padded_at K (1, 1) n y x _ ?_ ?_ ?_ ?_
  · show ((n.val * 128 + y.val) * 128 + x.val) / 16384 = n.val; omega
  · show 0 + 6 = 5 * 1 + 1; rfl
  · show 3 + ((n.val * 128 + y.val) * 128 + x.val) / 128 % 128 + 1 = 4 + y.val; omega
  · show 3 + ((n.val * 128 + y.val) * 128 + x.val) % 128 + 1 = 4 + x.val; omega

/-- Tap (1, 2): plane 7 of the padded array, rows from 3, columns from 2. -/
theorem ref_tap_7 (K : (⟨4, ![8, 25, 128, 128]⟩ : Shape).Idx → EReal) (n : Fin 8) (y x : Fin 128) :
    val_main_v24 (F := Ideal) K (ix3 n y x) = tap K (1, 2) n y x := by
  have hn := n.isLt; have hy := y.isLt; have hx := x.isLt
  rw [val_main_v24_apply, val_main_v23_apply]
  refine padded_at K (1, 2) n y x _ ?_ ?_ ?_ ?_
  · show ((n.val * 128 + y.val) * 128 + x.val) / 16384 = n.val; omega
  · show 0 + 7 = 5 * 1 + 2; rfl
  · show 3 + ((n.val * 128 + y.val) * 128 + x.val) / 128 % 128 + 1 = 4 + y.val; omega
  · show 2 + ((n.val * 128 + y.val) * 128 + x.val) % 128 + 2 = 4 + x.val; omega

/-- Tap (1, 3): plane 8 of the padded array, rows from 3, columns from 1. -/
theorem ref_tap_8 (K : (⟨4, ![8, 25, 128, 128]⟩ : Shape).Idx → EReal) (n : Fin 8) (y x : Fin 128) :
    val_main_v27 (F := Ideal) K (ix3 n y x) = tap K (1, 3) n y x := by
  have hn := n.isLt; have hy := y.isLt; have hx := x.isLt
  rw [val_main_v27_apply, val_main_v26_apply]
  refine padded_at K (1, 3) n y x _ ?_ ?_ ?_ ?_
  · show ((n.val * 128 + y.val) * 128 + x.val) / 16384 = n.val; omega
  · show 0 + 8 = 5 * 1 + 3; rfl
  · show 3 + ((n.val * 128 + y.val) * 128 + x.val) / 128 % 128 + 1 = 4 + y.val; omega
  · show 1 + ((n.val * 128 + y.val) * 128 + x.val) % 128 + 3 = 4 + x.val; omega

/-- Tap (1, 4): plane 9 of the padded array, rows from 3, columns from 0. -/
theorem ref_tap_9 (K : (⟨4, ![8, 25, 128, 128]⟩ : Shape).Idx → EReal) (n : Fin 8) (y x : Fin 128) :
    val_main_v30 (F := Ideal) K (ix3 n y x) = tap K (1, 4) n y x := by
  have hn := n.isLt; have hy := y.isLt; have hx := x.isLt
  rw [val_main_v30_apply, val_main_v29_apply]
  refine padded_at K (1, 4) n y x _ ?_ ?_ ?_ ?_
  · show ((n.val * 128 + y.val) * 128 + x.val) / 16384 = n.val; omega
  · show 0 + 9 = 5 * 1 + 4; rfl
  · show 3 + ((n.val * 128 + y.val) * 128 + x.val) / 128 % 128 + 1 = 4 + y.val; omega
  · show ((n.val * 128 + y.val) * 128 + x.val) % 128 + 4 = 4 + x.val; omega

/-- Tap (2, 0): plane 10 of the padded array, rows from 2, columns from 4. -/
theorem ref_tap_10 (K : (⟨4, ![8, 25, 128, 128]⟩ : Shape).Idx → EReal) (n : Fin 8) (y x : Fin 128) :
    val_main_v33 (F := Ideal) K (ix3 n y x) = tap K (2, 0) n y x := by
  have hn := n.isLt; have hy := y.isLt; have hx := x.isLt
  rw [val_main_v33_apply, val_main_v32_apply]
  refine padded_at K (2, 0) n y x _ ?_ ?_ ?_ ?_
  · show ((n.val * 128 + y.val) * 128 + x.val) / 16384 = n.val; omega
  · show 0 + 10 = 5 * 2 + 0; rfl
  · show 2 + ((n.val * 128 + y.val) * 128 + x.val) / 128 % 128 + 2 = 4 + y.val; omega
  · show 4 + ((n.val * 128 + y.val) * 128 + x.val) % 128 + 0 = 4 + x.val; omega

/-- Tap (2, 1): plane 11 of the padded array, rows from 2, columns from 3. -/
theorem ref_tap_11 (K : (⟨4, ![8, 25, 128, 128]⟩ : Shape).Idx → EReal) (n : Fin 8) (y x : Fin 128) :
    val_main_v36 (F := Ideal) K (ix3 n y x) = tap K (2, 1) n y x := by
  have hn := n.isLt; have hy := y.isLt; have hx := x.isLt
  rw [val_main_v36_apply, val_main_v35_apply]
  refine padded_at K (2, 1) n y x _ ?_ ?_ ?_ ?_
  · show ((n.val * 128 + y.val) * 128 + x.val) / 16384 = n.val; omega
  · show 0 + 11 = 5 * 2 + 1; rfl
  · show 2 + ((n.val * 128 + y.val) * 128 + x.val) / 128 % 128 + 2 = 4 + y.val; omega
  · show 3 + ((n.val * 128 + y.val) * 128 + x.val) % 128 + 1 = 4 + x.val; omega

/-- Tap (2, 2): plane 12 of the padded array, rows from 2, columns from 2. -/
theorem ref_tap_12 (K : (⟨4, ![8, 25, 128, 128]⟩ : Shape).Idx → EReal) (n : Fin 8) (y x : Fin 128) :
    val_main_v39 (F := Ideal) K (ix3 n y x) = tap K (2, 2) n y x := by
  have hn := n.isLt; have hy := y.isLt; have hx := x.isLt
  rw [val_main_v39_apply, val_main_v38_apply]
  refine padded_at K (2, 2) n y x _ ?_ ?_ ?_ ?_
  · show ((n.val * 128 + y.val) * 128 + x.val) / 16384 = n.val; omega
  · show 0 + 12 = 5 * 2 + 2; rfl
  · show 2 + ((n.val * 128 + y.val) * 128 + x.val) / 128 % 128 + 2 = 4 + y.val; omega
  · show 2 + ((n.val * 128 + y.val) * 128 + x.val) % 128 + 2 = 4 + x.val; omega

/-- Tap (2, 3): plane 13 of the padded array, rows from 2, columns from 1. -/
theorem ref_tap_13 (K : (⟨4, ![8, 25, 128, 128]⟩ : Shape).Idx → EReal) (n : Fin 8) (y x : Fin 128) :
    val_main_v42 (F := Ideal) K (ix3 n y x) = tap K (2, 3) n y x := by
  have hn := n.isLt; have hy := y.isLt; have hx := x.isLt
  rw [val_main_v42_apply, val_main_v41_apply]
  refine padded_at K (2, 3) n y x _ ?_ ?_ ?_ ?_
  · show ((n.val * 128 + y.val) * 128 + x.val) / 16384 = n.val; omega
  · show 0 + 13 = 5 * 2 + 3; rfl
  · show 2 + ((n.val * 128 + y.val) * 128 + x.val) / 128 % 128 + 2 = 4 + y.val; omega
  · show 1 + ((n.val * 128 + y.val) * 128 + x.val) % 128 + 3 = 4 + x.val; omega

/-- Tap (2, 4): plane 14 of the padded array, rows from 2, columns from 0. -/
theorem ref_tap_14 (K : (⟨4, ![8, 25, 128, 128]⟩ : Shape).Idx → EReal) (n : Fin 8) (y x : Fin 128) :
    val_main_v45 (F := Ideal) K (ix3 n y x) = tap K (2, 4) n y x := by
  have hn := n.isLt; have hy := y.isLt; have hx := x.isLt
  rw [val_main_v45_apply, val_main_v44_apply]
  refine padded_at K (2, 4) n y x _ ?_ ?_ ?_ ?_
  · show ((n.val * 128 + y.val) * 128 + x.val) / 16384 = n.val; omega
  · show 0 + 14 = 5 * 2 + 4; rfl
  · show 2 + ((n.val * 128 + y.val) * 128 + x.val) / 128 % 128 + 2 = 4 + y.val; omega
  · show ((n.val * 128 + y.val) * 128 + x.val) % 128 + 4 = 4 + x.val; omega

/-- Tap (3, 0): plane 15 of the padded array, rows from 1, columns from 4. -/
theorem ref_tap_15 (K : (⟨4, ![8, 25, 128, 128]⟩ : Shape).Idx → EReal) (n : Fin 8) (y x : Fin 128) :
    val_main_v48 (F := Ideal) K (ix3 n y x) = tap K (3, 0) n y x := by
  have hn := n.isLt; have hy := y.isLt; have hx := x.isLt
  rw [val_main_v48_apply, val_main_v47_apply]
  refine padded_at K (3, 0) n y x _ ?_ ?_ ?_ ?_
  · show ((n.val * 128 + y.val) * 128 + x.val) / 16384 = n.val; omega
  · show 0 + 15 = 5 * 3 + 0; rfl
  · show 1 + ((n.val * 128 + y.val) * 128 + x.val) / 128 % 128 + 3 = 4 + y.val; omega
  · show 4 + ((n.val * 128 + y.val) * 128 + x.val) % 128 + 0 = 4 + x.val; omega

/-- Tap (3, 1): plane 16 of the padded array, rows from 1, columns from 3. -/
theorem ref_tap_16 (K : (⟨4, ![8, 25, 128, 128]⟩ : Shape).Idx → EReal) (n : Fin 8) (y x : Fin 128) :
    val_main_v51 (F := Ideal) K (ix3 n y x) = tap K (3, 1) n y x := by
  have hn := n.isLt; have hy := y.isLt; have hx := x.isLt
  rw [val_main_v51_apply, val_main_v50_apply]
  refine padded_at K (3, 1) n y x _ ?_ ?_ ?_ ?_
  · show ((n.val * 128 + y.val) * 128 + x.val) / 16384 = n.val; omega
  · show 0 + 16 = 5 * 3 + 1; rfl
  · show 1 + ((n.val * 128 + y.val) * 128 + x.val) / 128 % 128 + 3 = 4 + y.val; omega
  · show 3 + ((n.val * 128 + y.val) * 128 + x.val) % 128 + 1 = 4 + x.val; omega

/-- Tap (3, 2): plane 17 of the padded array, rows from 1, columns from 2. -/
theorem ref_tap_17 (K : (⟨4, ![8, 25, 128, 128]⟩ : Shape).Idx → EReal) (n : Fin 8) (y x : Fin 128) :
    val_main_v54 (F := Ideal) K (ix3 n y x) = tap K (3, 2) n y x := by
  have hn := n.isLt; have hy := y.isLt; have hx := x.isLt
  rw [val_main_v54_apply, val_main_v53_apply]
  refine padded_at K (3, 2) n y x _ ?_ ?_ ?_ ?_
  · show ((n.val * 128 + y.val) * 128 + x.val) / 16384 = n.val; omega
  · show 0 + 17 = 5 * 3 + 2; rfl
  · show 1 + ((n.val * 128 + y.val) * 128 + x.val) / 128 % 128 + 3 = 4 + y.val; omega
  · show 2 + ((n.val * 128 + y.val) * 128 + x.val) % 128 + 2 = 4 + x.val; omega

/-- Tap (3, 3): plane 18 of the padded array, rows from 1, columns from 1. -/
theorem ref_tap_18 (K : (⟨4, ![8, 25, 128, 128]⟩ : Shape).Idx → EReal) (n : Fin 8) (y x : Fin 128) :
    val_main_v57 (F := Ideal) K (ix3 n y x) = tap K (3, 3) n y x := by
  have hn := n.isLt; have hy := y.isLt; have hx := x.isLt
  rw [val_main_v57_apply, val_main_v56_apply]
  refine padded_at K (3, 3) n y x _ ?_ ?_ ?_ ?_
  · show ((n.val * 128 + y.val) * 128 + x.val) / 16384 = n.val; omega
  · show 0 + 18 = 5 * 3 + 3; rfl
  · show 1 + ((n.val * 128 + y.val) * 128 + x.val) / 128 % 128 + 3 = 4 + y.val; omega
  · show 1 + ((n.val * 128 + y.val) * 128 + x.val) % 128 + 3 = 4 + x.val; omega

/-- Tap (3, 4): plane 19 of the padded array, rows from 1, columns from 0. -/
theorem ref_tap_19 (K : (⟨4, ![8, 25, 128, 128]⟩ : Shape).Idx → EReal) (n : Fin 8) (y x : Fin 128) :
    val_main_v60 (F := Ideal) K (ix3 n y x) = tap K (3, 4) n y x := by
  have hn := n.isLt; have hy := y.isLt; have hx := x.isLt
  rw [val_main_v60_apply, val_main_v59_apply]
  refine padded_at K (3, 4) n y x _ ?_ ?_ ?_ ?_
  · show ((n.val * 128 + y.val) * 128 + x.val) / 16384 = n.val; omega
  · show 0 + 19 = 5 * 3 + 4; rfl
  · show 1 + ((n.val * 128 + y.val) * 128 + x.val) / 128 % 128 + 3 = 4 + y.val; omega
  · show ((n.val * 128 + y.val) * 128 + x.val) % 128 + 4 = 4 + x.val; omega

/-- Tap (4, 0): plane 20 of the padded array, rows from 0, columns from 4. -/
theorem ref_tap_20 (K : (⟨4, ![8, 25, 128, 128]⟩ : Shape).Idx → EReal) (n : Fin 8) (y x : Fin 128) :
    val_main_v63 (F := Ideal) K (ix3 n y x) = tap K (4, 0) n y x := by
  have hn := n.isLt; have hy := y.isLt; have hx := x.isLt
  rw [val_main_v63_apply, val_main_v62_apply]
  refine padded_at K (4, 0) n y x _ ?_ ?_ ?_ ?_
  · show ((n.val * 128 + y.val) * 128 + x.val) / 16384 = n.val; omega
  · show 0 + 20 = 5 * 4 + 0; rfl
  · show ((n.val * 128 + y.val) * 128 + x.val) / 128 % 128 + 4 = 4 + y.val; omega
  · show 4 + ((n.val * 128 + y.val) * 128 + x.val) % 128 + 0 = 4 + x.val; omega

/-- Tap (4, 1): plane 21 of the padded array, rows from 0, columns from 3. -/
theorem ref_tap_21 (K : (⟨4, ![8, 25, 128, 128]⟩ : Shape).Idx → EReal) (n : Fin 8) (y x : Fin 128) :
    val_main_v66 (F := Ideal) K (ix3 n y x) = tap K (4, 1) n y x := by
  have hn := n.isLt; have hy := y.isLt; have hx := x.isLt
  rw [val_main_v66_apply, val_main_v65_apply]
  refine padded_at K (4, 1) n y x _ ?_ ?_ ?_ ?_
  · show ((n.val * 128 + y.val) * 128 + x.val) / 16384 = n.val; omega
  · show 0 + 21 = 5 * 4 + 1; rfl
  · show ((n.val * 128 + y.val) * 128 + x.val) / 128 % 128 + 4 = 4 + y.val; omega
  · show 3 + ((n.val * 128 + y.val) * 128 + x.val) % 128 + 1 = 4 + x.val; omega

/-- Tap (4, 2): plane 22 of the padded array, rows from 0, columns from 2. -/
theorem ref_tap_22 (K : (⟨4, ![8, 25, 128, 128]⟩ : Shape).Idx → EReal) (n : Fin 8) (y x : Fin 128) :
    val_main_v69 (F := Ideal) K (ix3 n y x) = tap K (4, 2) n y x := by
  have hn := n.isLt; have hy := y.isLt; have hx := x.isLt
  rw [val_main_v69_apply, val_main_v68_apply]
  refine padded_at K (4, 2) n y x _ ?_ ?_ ?_ ?_
  · show ((n.val * 128 + y.val) * 128 + x.val) / 16384 = n.val; omega
  · show 0 + 22 = 5 * 4 + 2; rfl
  · show ((n.val * 128 + y.val) * 128 + x.val) / 128 % 128 + 4 = 4 + y.val; omega
  · show 2 + ((n.val * 128 + y.val) * 128 + x.val) % 128 + 2 = 4 + x.val; omega

/-- Tap (4, 3): plane 23 of the padded array, rows from 0, columns from 1. -/
theorem ref_tap_23 (K : (⟨4, ![8, 25, 128, 128]⟩ : Shape).Idx → EReal) (n : Fin 8) (y x : Fin 128) :
    val_main_v72 (F := Ideal) K (ix3 n y x) = tap K (4, 3) n y x := by
  have hn := n.isLt; have hy := y.isLt; have hx := x.isLt
  rw [val_main_v72_apply, val_main_v71_apply]
  refine padded_at K (4, 3) n y x _ ?_ ?_ ?_ ?_
  · show ((n.val * 128 + y.val) * 128 + x.val) / 16384 = n.val; omega
  · show 0 + 23 = 5 * 4 + 3; rfl
  · show ((n.val * 128 + y.val) * 128 + x.val) / 128 % 128 + 4 = 4 + y.val; omega
  · show 1 + ((n.val * 128 + y.val) * 128 + x.val) % 128 + 3 = 4 + x.val; omega

/-- Tap (4, 4): plane 24 of the padded array, rows from 0, columns from 0. -/
theorem ref_tap_24 (K : (⟨4, ![8, 25, 128, 128]⟩ : Shape).Idx → EReal) (n : Fin 8) (y x : Fin 128) :
    val_main_v75 (F := Ideal) K (ix3 n y x) = tap K (4, 4) n y x := by
  have hn := n.isLt; have hy := y.isLt; have hx := x.isLt
  rw [val_main_v75_apply, val_main_v74_apply]
  refine padded_at K (4, 4) n y x _ ?_ ?_ ?_ ?_
  · show ((n.val * 128 + y.val) * 128 + x.val) / 16384 = n.val; omega
  · show 0 + 24 = 5 * 4 + 4; rfl
  · show ((n.val * 128 + y.val) * 128 + x.val) / 128 % 128 + 4 = 4 + y.val; omega
  · show ((n.val * 128 + y.val) * 128 + x.val) % 128 + 4 = 4 + x.val; omega

/-! ## The sum of the windows, and the result -/

/-- The reference's running sum after the last window is the tap sum. -/
theorem sums_apply (K : (⟨4, ![8, 25, 128, 128]⟩ : Shape).Idx → EReal) (n : Fin 8) (y x : Fin 128) :
    val_main_v76 (F := Ideal) K (ix3 n y x) = shifted K n y x := by
  rw [val_main_v76_apply, val_main_v73_apply, val_main_v70_apply, val_main_v67_apply, val_main_v64_apply, val_main_v61_apply, val_main_v58_apply, val_main_v55_apply, val_main_v52_apply, val_main_v49_apply, val_main_v46_apply, val_main_v43_apply, val_main_v40_apply, val_main_v37_apply, val_main_v34_apply, val_main_v31_apply, val_main_v28_apply, val_main_v25_apply, val_main_v22_apply, val_main_v19_apply, val_main_v16_apply, val_main_v13_apply, val_main_v10_apply, val_main_v7_apply, val_main_v4_apply]
  rw [ref_tap_0, ref_tap_1, ref_tap_2, ref_tap_3, ref_tap_4, ref_tap_5, ref_tap_6, ref_tap_7, ref_tap_8, ref_tap_9, ref_tap_10, ref_tap_11, ref_tap_12, ref_tap_13, ref_tap_14, ref_tap_15, ref_tap_16, ref_tap_17, ref_tap_18, ref_tap_19, ref_tap_20, ref_tap_21, ref_tap_22, ref_tap_23, ref_tap_24]
  have hinit : val_main_v1 (F := Ideal) (ix3 n y x) = (0 : EReal) := by
    rw [val_main_v1_apply, val_main_cst_apply]
    exact Ideal.ofBits_zero_f32
  rw [hinit]
  rfl

/-- THE REFERENCE'S RESULT is `G` of its two arguments: `low_fea` times the tap sum laid along the channel axis. -/
theorem result_eq (K : (⟨4, ![8, 25, 128, 128]⟩ : Shape).Idx → EReal) (L : (⟨4, ![8, 256, 128, 128]⟩ : Shape).Idx → EReal) :
    val_main_v79 (F := Ideal) K L = G K L := by
  funext i
  obtain ⟨n, ch, y, x, rfl⟩ : ∃ (n : Fin 8) (ch : Fin 256) (y x : Fin 128), i = ix4 n ch y x :=
    ⟨i 0, i 1, i 2, i 3, eq_ix4 i⟩
  rw [val_main_v79_apply, val_main_v78_apply, val_main_v77_apply]
  have hidx : idx_main_v77 (idx_main_v78 (ix4 n ch y x)) = ix3 n y x := by
    funext a
    match a with
    | ⟨0, _⟩ => rfl
    | ⟨1, _⟩ => rfl
    | ⟨2, _⟩ => rfl
  rw [hidx, sums_apply]
  rfl

end Cert.ReferenceIdeal.RefValue

end
-- ==== Proof.lean ====
/-
  A 5 × 5 stencil of per-position weights collapsed to one sum, times a feature map.

  The kernel's two arguments are `kernel`, [8, 25, 128, 128], and `low_fea`, [8, 256, 128, 128]. Both programs compute

      out[n, c, y, x] = low_fea[n, c, y, x] · S[n, y, x],
      S[n, y, x] = Σ over taps (a, b), a and b in 0…4, of kernel[n, 5a + b, y + 2 - a, x + 2 - b],

  a term of the sum being zero when the moved position `(y + 2 - a, x + 2 - b)` falls outside the 128 × 128 plane.

  The kernel does it in two pallas_calls: the first forms `S` one batch entry at a time, each tap by rotating its plane
  along rows and columns and masking off what came around the edge; the second multiplies each half of the channels of
  a batch entry by that entry's `S`. The reference pads every plane with a border of two zeros, cuts the 25 shifted
  windows and adds them, and multiplies. A tap is the same number either way (`Cert.TapSum.tap`): inside the plane the
  rotation and the window read the same entry, outside the mask and the border both give zero. Both programs add the 25
  taps to zero in the same order, so the two sums are the same extended real whatever the entries are; no law of
  addition and no finiteness of the inputs is used, and the precondition is never opened.

  The parts: `Proof/TapSum.lean` states the function `G`; `Proof/KernelTap.lean` reads one tap of the vector unit at an
  entry; `Proof/Region0.lean` and `Proof/Region1.lean` give the array each pallas_call leaves; `Proof/KernelRun.lean` runs
  @main through its two regions and names the result; `Proof/RefValue.lean` shows the reference's result is `G`. The
  three frames are the generated ones (the reference's is its generated run with the result dropped), and the kernel's
  idealization rewrote nothing, so there is nothing to preserve.
-/
import proofs.«139700_j20555713479255_2_alg».proof.Defs
import proofs.«139700_j20555713479255_2_alg».proof.Proof.Gen.Kernel
import proofs.«139700_j20555713479255_2_alg».proof.Proof.Gen.Kernel.Skeleton
import proofs.«139700_j20555713479255_2_alg».proof.Proof.Gen.Kernel.Launch
import proofs.«139700_j20555713479255_2_alg».proof.Proof.Gen.Kernel.Points
import proofs.«139700_j20555713479255_2_alg».proof.Proof.Gen.Kernel.Frame
import proofs.«139700_j20555713479255_2_alg».proof.Proof.Gen.KernelIdeal
import proofs.«139700_j20555713479255_2_alg».proof.Proof.Gen.KernelIdeal.Skeleton
import proofs.«139700_j20555713479255_2_alg».proof.Proof.Gen.KernelIdeal.Launch
import proofs.«139700_j20555713479255_2_alg».proof.Proof.Gen.KernelIdeal.Points
import proofs.«139700_j20555713479255_2_alg».proof.Proof.Gen.KernelIdeal.Frame
import proofs.«139700_j20555713479255_2_alg».proof.Proof.Gen.ReferenceIdeal
import proofs.«139700_j20555713479255_2_alg».proof.Proof.Gen.ReferenceIdeal.Run
import proofs.«139700_j20555713479255_2_alg».proof.Proof.Gen.ReferenceIdeal.Read
import proofs.«139700_j20555713479255_2_alg».proof.Proof.Gen.Pre_finite_inputs
import proofs.«139700_j20555713479255_2_alg».proof.Proof.KernelRun
import proofs.«139700_j20555713479255_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, both programs end with the result at `G` of those arguments. -/
theorem algebraic : Cert.algebraic_KernelIdeal_ReferenceIdeal := by
  intro m ρ m' ρ' _ hagree
  refine ⟨fun c => Cert.TapSum.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.WholeRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v79_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
